-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S100000x128 : Shape := ⟨2, ![100000, 128]⟩
abbrev S500x192 : Shape := ⟨2, ![500, 192]⟩
abbrev S100000x64 : Shape := ⟨2, ![100000, 64]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S500x192 : S_.BroadcastsInDim S500x192 (![] : Fin 0 → Fin S500x192.rank)
  reducesTo_S500x192_S_d0_1 : S500x192.ReducesTo [0, 1] S_
  bcast_S_S100000x64 : S_.BroadcastsInDim S100000x64 (![] : Fin 0 → Fin S100000x64.rank)
  reducesTo_S100000x64_S_d0_1 : S100000x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S100000x64 .f32) (main_arg15 : FVec F S100000x64 .f32) (main_arg16 : FVec F S100000x64 .f32) (main_v48 : IVec S_ 1) (main_v49 : FVec F S100000x64 .f32) (main_v50 : FVec F S100000x64 .f32) : IVec S_ 1 :=
  let main_v51 : IVec S100000x64 1 := cmpf .olt main_v49 main_v50
  let main_c_19 : IVec S_ 1 := constantI S_ 1 1#1
  let main_v52 : IVec S_ 1 := (fun x v => Host.reduce IntOp.andi x v reducesTo_S100000x64_S_d0_1 h_S_) main_v51 main_c_19
  let main_v53 : IVec S_ 1 := andi main_v48 main_v52
  let main_v54 : FVec F S100000x64 .f32 := Host.absf main_arg14
  let main_cst_20 : FVec F S_ .f32 := constant S_ .f32 0x7F800000#32
  let main_v55 : FVec F S100000x64 .f32 := broadcastInDim S100000x64 ![] bcast_S_S100000x64 main_cst_20
  let main_v56 : IVec S100000x64 1 := cmpf .olt main_v54 main_v55
  let main_c_21 : IVec S_ 1 := constantI S_ 1 1#1
  let main_v57 : IVec S_ 1 := (fun x v => Host.reduce IntOp.andi x v reducesTo_S100000x64_S_d0_1 h_S_) main_v56 main_c_21
  let main_v58 : IVec S_ 1 := andi main_v53 main_v57
  let main_v59 : FVec F S100000x64 .f32 := Host.absf main_arg15
  let main_cst_22 : FVec F S_ .f32 := constant S_ .f32 0x7F800000#32
  let main_v60 : FVec F S100000x64 .f32 := broadcastInDim S100000x64 ![] bcast_S_S100000x64 main_cst_22
  let main_v61 : IVec S100000x64 1 := cmpf .olt main_v59 main_v60
  let main_c_23 : IVec S_ 1 := constantI S_ 1 1#1
  let main_v62 : IVec S_ 1 := (fun x v => Host.reduce IntOp.andi x v reducesTo_S100000x64_S_d0_1 h_S_) main_v61 main_c_23
  let main_v63 : IVec S_ 1 := andi main_v58 main_v62
  let main_v64 : FVec F S100000x64 .f32 := Host.absf main_arg16
  let main_cst_24 : FVec F S_ .f32 := constant S_ .f32 0x7F800000#32
  let main_v65 : FVec F S100000x64 .f32 := broadcastInDim S100000x64 ![] bcast_S_S100000x64 main_cst_24
  let main_v66 : IVec S100000x64 1 := cmpf .olt main_v64 main_v65
  let main_c_25 : IVec S_ 1 := constantI S_ 1 1#1
  let main_v67 : IVec S_ 1 := (fun x v => Host.reduce IntOp.andi x v reducesTo_S100000x64_S_d0_1 h_S_) main_v66 main_c_25
  fn_part4 (F := F) main_v63 main_v67

def fn_part2 {F : FTy → Type} [FloatOps F] (main_arg10 : FVec F S100000x64 .f32) (main_arg11 : FVec F S100000x64 .f32) (main_arg12 : FVec F S100000x64 .f32) (main_arg13 : FVec F S100000x64 .f32) (main_arg14 : FVec F S100000x64 .f32) (main_arg15 : FVec F S100000x64 .f32) (main_arg16 : FVec F S100000x64 .f32) (main_v33 : IVec S_ 1) : IVec S_ 1 :=
  let main_v34 : FVec F S100000x64 .f32 := Host.absf main_arg10
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  let main_v39 : FVec F S100000x64 .f32 := Host.absf main_arg11
  let main_cst_14 : FVec F S_ .f32 := constant S_ .f32 0x7F800000#32
  let main_v40 : FVec F S100000x64 .f32 := broadcastInDim S100000x64 ![] bcast_S_S100000x64 main_cst_14
  let main_v41 : IVec S100000x64 1 := cmpf .olt main_v39 main_v40
  let main_c_15 : IVec S_ 1 := constantI S_ 1 1#1
  let main_v42 : IVec S_ 1 := (fun x v => Host.reduce IntOp.andi x v reducesTo_S100000x64_S_d0_1 h_S_) main_v41 main_c_15
  let main_v43 : IVec S_ 1 := andi main_v38 main_v42
  let main_v44 : FVec F S100000x64 .f32 := Host.absf main_arg12
  let main_cst_16 : FVec F S_ .f32 := constant S_ .f32 0x7F800000#32
  let main_v45 : FVec F S100000x64 .f32 := broadcastInDim S100000x64 ![] bcast_S_S100000x64 main_cst_16
  let main_v46 : IVec S100000x64 1 := cmpf .olt main_v44 main_v45
  let main_c_17 : IVec S_ 1 := constantI S_ 1 1#1
  let main_v47 : IVec S_ 1 := (fun x v => Host.reduce IntOp.andi x v reducesTo_S100000x64_S_d0_1 h_S_) main_v46 main_c_17
  let main_v48 : IVec S_ 1 := andi main_v43 main_v47
  let main_v49 : FVec F S100000x64 .f32 := Host.absf main_arg13
  let main_cst_18 : FVec F S_ .f32 := constant S_ .f32 0x7F800000#32
  let main_v50 : FVec F S100000x64 .f32 := broadcastInDim S100000x64 ![] bcast_S_S100000x64 main_cst_18
  fn_part3 (F := F) main_arg14 main_arg15 main_arg16 main_v48 main_v49 main_v50

def fn_part1 {F : FTy → Type} [FloatOps F] (main_arg7 : FVec F S500x192 .f32) (main_arg8 : FVec F S100000x64 .f32) (main_arg9 : FVec F S100000x64 .f32) (main_arg10 : FVec F S100000x64 .f32) (main_arg11 : FVec F S100000x64 .f32) (main_arg12 : FVec F S100000x64 .f32) (main_arg13 : FVec F S100000x64 .f32) (main_arg14 : FVec F S100000x64 .f32) (main_arg15 : FVec F S100000x64 .f32) (main_arg16 : FVec F S100000x64 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S500x192 .f32 := Host.absf main_arg7
  let main_cst_6 : FVec F S_ .f32 := constant S_ .f32 0x7F800000#32
  let main_v20 : FVec F S500x192 .f32 := broadcastInDim S500x192 ![] bcast_S_S500x192 main_cst_6
  let main_v21 : IVec S500x192 1 := cmpf .olt main_v19 main_v20
  let main_c_7 : IVec S_ 1 := constantI S_ 1 1#1
  let main_v22 : IVec S_ 1 := (fun x v => Host.reduce IntOp.andi x v reducesTo_S500x192_S_d0_1 h_S_) main_v21 main_c_7
  let main_v23 : IVec S_ 1 := andi main_v18 main_v22
  let main_v24 : FVec F S100000x64 .f32 := Host.absf main_arg8
  let main_cst_8 : FVec F S_ .f32 := constant S_ .f32 0x7F800000#32
  let main_v25 : FVec F S100000x64 .f32 := broadcastInDim S100000x64 ![] bcast_S_S100000x64 main_cst_8
  let main_v26 : IVec S100000x64 1 := cmpf .olt main_v24 main_v25
  let main_c_9 : IVec S_ 1 := constantI S_ 1 1#1
  let main_v27 : IVec S_ 1 := (fun x v => Host.reduce IntOp.andi x v reducesTo_S100000x64_S_d0_1 h_S_) main_v26 main_c_9
  let main_v28 : IVec S_ 1 := andi main_v23 main_v27
  let main_v29 : FVec F S100000x64 .f32 := Host.absf main_arg9
  let main_cst_10 : FVec F S_ .f32 := constant S_ .f32 0x7F800000#32
  let main_v30 : FVec F S100000x64 .f32 := broadcastInDim S100000x64 ![] bcast_S_S100000x64 main_cst_10
  let main_v31 : IVec S100000x64 1 := cmpf .olt main_v29 main_v30
  let main_c_11 : IVec S_ 1 := constantI S_ 1 1#1
  let main_v32 : IVec S_ 1 := (fun x v => Host.reduce IntOp.andi x v reducesTo_S100000x64_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : IVec S131072 32) (main_arg1 : IVec S131072 32) (main_arg2 : IVec S131072 32) (main_arg3 : FVec F S131072 .f32) (main_arg4 : FVec F S131072 .f32) (main_arg5 : FVec F S131072 .f32) (main_arg6 : FVec F S100000x128 .f32) (main_arg7 : FVec F S500x192 .f32) (main_arg8 : FVec F S100000x64 .f32) (main_arg9 : FVec F S100000x64 .f32) (main_arg10 : FVec F S100000x64 .f32) (main_arg11 : FVec F S100000x64 .f32) (main_arg12 : FVec F S100000x64 .f32) (main_arg13 : FVec F S100000x64 .f32) (main_arg14 : FVec F S100000x64 .f32) (main_arg15 : FVec F S100000x64 .f32) (main_arg16 : FVec F S100000x64 .f32) : IVec S_ 1 :=
  let main_v0 : FVec F S131072 .f32 := Host.absf main_arg3
  let main_cst : FVec F S_ .f32 := constant S_ .f32 0x7F800000#32
  let main_v1 : FVec F S131072 .f32 := broadcastInDim S131072 ![] bcast_S_S131072 main_cst
  let main_v2 : IVec S131072 1 := cmpf .olt main_v0 main_v1
  let main_c : IVec S_ 1 := constantI S_ 1 1#1
  let main_v3 : IVec S_ 1 := (fun x v => Host.reduce IntOp.andi x v reducesTo_S131072_S_d0 h_S_) main_v2 main_c
  let main_v4 : FVec F S131072 .f32 := Host.absf main_arg4
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S131072 .f32 := Host.absf main_arg5
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S100000x128 .f32 := Host.absf main_arg6
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg7 main_arg8 main_arg9 main_arg10 main_arg11 main_arg12 main_arg13 main_arg14 main_arg15 main_arg16 main_v13 main_v16
-- ==== Kernel.lean ====
abbrev S131072 : Shape := ⟨1, ![131072]⟩
abbrev S100000x128 : Shape := ⟨2, ![100000, 128]⟩
abbrev S500x192 : Shape := ⟨2, ![500, 192]⟩
abbrev S100000x64 : Shape := ⟨2, ![100000, 64]⟩
abbrev S_ : Shape := ⟨0, ![]⟩
abbrev S131072x1 : Shape := ⟨2, ![131072, 1]⟩
abbrev S131072x128 : Shape := ⟨2, ![131072, 128]⟩
abbrev S131072x192 : Shape := ⟨2, ![131072, 192]⟩
abbrev S131072x64 : Shape := ⟨2, ![131072, 64]⟩
abbrev S2048x128 : Shape := ⟨2, ![2048, 128]⟩
abbrev S2048x192 : Shape := ⟨2, ![2048, 192]⟩
abbrev S2048x64 : Shape := ⟨2, ![2048, 64]⟩
abbrev S2048x1 : Shape := ⟨2, ![2048, 1]⟩
abbrev S2048 : Shape := ⟨1, ![2048]⟩

abbrev nBuf : Space → Nat
  | .hbm => 211
  | .vmem => 50
  | .smem => 0
  | _ => 0

abbrev hbmTy0_0 (i : Nat) : BufTy := match i % 128 with
  | 0 => ⟨S131072, .i32⟩
  | 1 => ⟨S131072, .i32⟩
  | 2 => ⟨S131072, .i32⟩
  | 3 => ⟨S131072, .f32⟩
  | 4 => ⟨S131072, .f32⟩
  | 5 => ⟨S131072, .f32⟩
  | 6 => ⟨S100000x128, .f32⟩
  | 7 => ⟨S500x192, .f32⟩
  | 8 => ⟨S100000x64, .f32⟩
  | 9 => ⟨S100000x64, .f32⟩
  | 10 => ⟨S100000x64, .f32⟩
  | 11 => ⟨S100000x64, .f32⟩
  | 12 => ⟨S100000x64, .f32⟩
  | 13 => ⟨S100000x64, .f32⟩
  | 14 => ⟨S100000x64, .f32⟩
  | 15 => ⟨S100000x64, .f32⟩
  | 16 => ⟨S100000x64, .f32⟩
  | 17 => ⟨S_, .i32⟩
  | 18 => ⟨S131072, .i32⟩
  | 19 => ⟨S131072, .i1⟩
  | 20 => ⟨S_, .i32⟩
  | 21 => ⟨S131072, .i32⟩
  | 22 => ⟨S131072, .i32⟩
  | 23 => ⟨S131072, .i32⟩
  | 24 => ⟨S131072x1, .i32⟩
  | 25 => ⟨S131072x128, .f32⟩
  | 26 => ⟨S_, .i32⟩
  | 27 => ⟨S131072, .i32⟩
  | 28 => ⟨S131072, .i1⟩
  | 29 => ⟨S_, .i32⟩
  | 30 => ⟨S131072, .i32⟩
  | 31 => ⟨S131072, .i32⟩
  | 32 => ⟨S131072, .i32⟩
  | 33 => ⟨S131072x1, .i32⟩
  | 34 => ⟨S131072x128, .f32⟩
  | 35 => ⟨S_, .i32⟩
  | 36 => ⟨S131072, .i32⟩
  | 37 => ⟨S131072, .i1⟩
  | 38 => ⟨S_, .i32⟩
  | 39 => ⟨S131072, .i32⟩
  | 40 => ⟨S131072, .i32⟩
  | 41 => ⟨S131072, .i32⟩
  | 42 => ⟨S131072x1, .i32⟩
  | 43 => ⟨S131072x192, .f32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S131072x1, .i32⟩
  | 52 => ⟨S131072x64, .f32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S131072x64, .f32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S131072x64, .f32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S131072x64, .f32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S131072x1, .i32⟩
  | 88 => ⟨S131072x64, .f32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072x64, .f32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S131072x1, .i32⟩
  | 106 => ⟨S131072x64, .f32⟩
  | 107 => ⟨S_, .i32⟩
  | 108 => ⟨S131072, .i32⟩
  | 109 => ⟨S131072, .i1⟩
  | 110 => ⟨S_, .i32⟩
  | 111 => ⟨S131072, .i32⟩
  | 112 => ⟨S131072, .i32⟩
  | 113 => ⟨S131072, .i32⟩
  | 114 => ⟨S131072x1, .i32⟩
  | 115 => ⟨S131072x64, .f32⟩
  | 116 => ⟨S_, .i32⟩
  | 117 => ⟨S131072, .i32⟩
  | 118 => ⟨S131072, .i1⟩
  | 119 => ⟨S_, .i32⟩
  | 120 => ⟨S131072, .i32⟩
  | 121 => ⟨S131072, .i32⟩
  | 122 => ⟨S131072, .i32⟩
  | 123 => ⟨S131072x1, .i32⟩
  | 124 => ⟨S131072x64, .f32⟩
  | 125 => ⟨S_, .i32⟩
  | 126 => ⟨S131072, .i32⟩
  | 127 => ⟨S131072, .i1⟩
  | _ => ⟨S131072, .i32⟩

abbrev hbmTy0_1 (i : Nat) : BufTy := match i % 128 with
  | 0 => ⟨S_, .i32⟩
  | 1 => ⟨S131072, .i32⟩
  | 2 => ⟨S131072, .i32⟩
  | 3 => ⟨S131072, .i32⟩
  | 4 => ⟨S131072x1, .i32⟩
  | 5 => ⟨S131072x64, .f32⟩
  | 6 => ⟨S_, .i32⟩
  | 7 => ⟨S131072, .i32⟩
  | 8 => ⟨S131072, .i1⟩
  | 9 => ⟨S_, .i32⟩
  | 10 => ⟨S131072, .i32⟩
  | 11 => ⟨S131072, .i32⟩
  | 12 => ⟨S131072, .i32⟩
  | 13 => ⟨S131072x1, .i32⟩
  | 14 => ⟨S131072x64, .f32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S131072x1, .i32⟩
  | 23 => ⟨S131072x64, .f32⟩
  | 24 => ⟨S_, .i32⟩
  | 25 => ⟨S131072, .i32⟩
  | 26 => ⟨S131072, .i1⟩
  | 27 => ⟨S_, .i32⟩
  | 28 => ⟨S131072, .i32⟩
  | 29 => ⟨S131072, .i32⟩
  | 30 => ⟨S131072, .i32⟩
  | 31 => ⟨S131072x1, .i32⟩
  | 32 => ⟨S131072x64, .f32⟩
  | 33 => ⟨S_, .i32⟩
  | 34 => ⟨S131072, .i32⟩
  | 35 => ⟨S131072, .i1⟩
  | 36 => ⟨S_, .i32⟩
  | 37 => ⟨S131072, .i32⟩
  | 38 => ⟨S131072, .i32⟩
  | 39 => ⟨S131072, .i32⟩
  | 40 => ⟨S131072x1, .i32⟩
  | 41 => ⟨S131072x64, .f32⟩
  | 42 => ⟨S_, .i32⟩
  | 43 => ⟨S131072, .i32⟩
  | 44 => ⟨S131072, .i1⟩
  | 45 => ⟨S_, .i32⟩
  | 46 => ⟨S131072, .i32⟩
  | 47 => ⟨S131072, .i32⟩
  | 48 => ⟨S131072, .i32⟩
  | 49 => ⟨S131072x1, .i32⟩
  | 50 => ⟨S131072x64, .f32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S131072x64, .f32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S131072x64, .f32⟩
  | 69 => ⟨S_, .i32⟩
  | 70 => ⟨S131072, .i32⟩
  | 71 => ⟨S131072, .i1⟩
  | 72 => ⟨S_, .i32⟩
  | 73 => ⟨S131072, .i32⟩
  | 74 => ⟨S131072, .i32⟩
  | 75 => ⟨S131072, .i32⟩
  | 76 => ⟨S131072x1, .i32⟩
  | 77 => ⟨S131072x64, .f32⟩
  | 78 => ⟨S131072x1, .f32⟩
  | 79 => ⟨S131072x1, .f32⟩
  | 80 => ⟨S131072x1, .f32⟩
  | 81 => ⟨S131072x1, .f32⟩
  | 82 => ⟨S131072, .f32⟩
  | _ => ⟨S131072, .i32⟩

abbrev hbmTy (i : Nat) : BufTy := match i / 128 with
  | 0 => hbmTy0_0 i
  | 1 => hbmTy0_1 i
  | _ => ⟨S131072, .i32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x192, .f32⟩
  | .local _ .vmem, ⟨5, _⟩ => ⟨S2048x192, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | .local _ .vmem, ⟨28, _⟩ => ⟨S2048x64, .f32⟩
  | .local _ .vmem, ⟨29, _⟩ => ⟨S2048x64, .f32⟩
  | .local _ .vmem, ⟨30, _⟩ => ⟨S2048x64, .f32⟩
  | .local _ .vmem, ⟨31, _⟩ => ⟨S2048x64, .f32⟩
  | .local _ .vmem, ⟨32, _⟩ => ⟨S2048x64, .f32⟩
  | .local _ .vmem, ⟨33, _⟩ => ⟨S2048x64, .f32⟩
  | .local _ .vmem, ⟨34, _⟩ => ⟨S2048x64, .f32⟩
  | .local _ .vmem, ⟨35, _⟩ => ⟨S2048x64, .f32⟩
  | .local _ .vmem, ⟨36, _⟩ => ⟨S2048x64, .f32⟩
  | .local _ .vmem, ⟨37, _⟩ => ⟨S2048x64, .f32⟩
  | .local _ .vmem, ⟨38, _⟩ => ⟨S2048x64, .f32⟩
  | .local _ .vmem, ⟨39, _⟩ => ⟨S2048x64, .f32⟩
  | .local _ .vmem, ⟨40, _⟩ => ⟨S2048x64, .f32⟩
  | .local _ .vmem, ⟨41, _⟩ => ⟨S2048x64, .f32⟩
  | .local _ .vmem, ⟨42, _⟩ => ⟨S2048x1, .f32⟩
  | .local _ .vmem, ⟨43, _⟩ => ⟨S2048x1, .f32⟩
  | .local _ .vmem, ⟨44, _⟩ => ⟨S2048x1, .f32⟩
  | .local _ .vmem, ⟨45, _⟩ => ⟨S2048x1, .f32⟩
  | .local _ .vmem, ⟨46, _⟩ => ⟨S2048x1, .f32⟩
  | .local _ .vmem, ⟨47, _⟩ => ⟨S2048x1, .f32⟩
  | .local _ .vmem, ⟨48, _⟩ => ⟨S2048x1, .f32⟩
  | .local _ .vmem, ⟨49, _⟩ => ⟨S2048x1, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_c_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_v36 : Ref sig .tc := ⟨.hbm, 64, rfl⟩
abbrev main_c_10 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_13 : Ref sig .tc := ⟨.hbm, 80, rfl⟩
abbrev main_v49 : Ref sig .tc := ⟨.hbm, 81, rfl⟩
abbrev main_v50 : Ref sig .tc := ⟨.hbm, 82, rfl⟩
abbrev main_c_14 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_15 : Ref sig .tc := ⟨.hbm, 89, rfl⟩
abbrev main_v56 : Ref sig .tc := ⟨.hbm, 90, rfl⟩
abbrev main_v57 : Ref sig .tc := ⟨.hbm, 91, rfl⟩
abbrev main_c_16 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_17 : Ref sig .tc := ⟨.hbm, 98, rfl⟩
abbrev main_v63 : Ref sig .tc := ⟨.hbm, 99, rfl⟩
abbrev main_v64 : Ref sig .tc := ⟨.hbm, 100, rfl⟩
abbrev main_c_18 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_19 : Ref sig .tc := ⟨.hbm, 107, rfl⟩
abbrev main_v70 : Ref sig .tc := ⟨.hbm, 108, rfl⟩
abbrev main_v71 : Ref sig .tc := ⟨.hbm, 109, rfl⟩
abbrev main_c_20 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_21 : Ref sig .tc := ⟨.hbm, 116, rfl⟩
abbrev main_v77 : Ref sig .tc := ⟨.hbm, 117, rfl⟩
abbrev main_v78 : Ref sig .tc := ⟨.hbm, 118, rfl⟩
abbrev main_c_22 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_23 : Ref sig .tc := ⟨.hbm, 125, rfl⟩
abbrev main_v84 : Ref sig .tc := ⟨.hbm, 126, rfl⟩
abbrev main_v85 : Ref sig .tc := ⟨.hbm, 127, rfl⟩
abbrev main_c_24 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_25 : Ref sig .tc := ⟨.hbm, 134, rfl⟩
abbrev main_v91 : Ref sig .tc := ⟨.hbm, 135, rfl⟩
abbrev main_v92 : Ref sig .tc := ⟨.hbm, 136, rfl⟩
abbrev main_c_26 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_27 : Ref sig .tc := ⟨.hbm, 143, rfl⟩
abbrev main_v98 : Ref sig .tc := ⟨.hbm, 144, rfl⟩
abbrev main_v99 : Ref sig .tc := ⟨.hbm, 145, rfl⟩
abbrev main_c_28 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_c_29 : Ref sig .tc := ⟨.hbm, 152, rfl⟩
abbrev main_v105 : Ref sig .tc := ⟨.hbm, 153, rfl⟩
abbrev main_v106 : Ref sig .tc := ⟨.hbm, 154, rfl⟩
abbrev main_c_30 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_c_31 : Ref sig .tc := ⟨.hbm, 161, rfl⟩
abbrev main_v112 : Ref sig .tc := ⟨.hbm, 162, rfl⟩
abbrev main_v113 : Ref sig .tc := ⟨.hbm, 163, rfl⟩
abbrev main_c_32 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_33 : Ref sig .tc := ⟨.hbm, 170, rfl⟩
abbrev main_v119 : Ref sig .tc := ⟨.hbm, 171, rfl⟩
abbrev main_v120 : Ref sig .tc := ⟨.hbm, 172, rfl⟩
abbrev main_c_34 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_c_35 : Ref sig .tc := ⟨.hbm, 179, rfl⟩
abbrev main_v126 : Ref sig .tc := ⟨.hbm, 180, rfl⟩
abbrev main_v127 : Ref sig .tc := ⟨.hbm, 181, rfl⟩
abbrev main_c_36 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_c_37 : Ref sig .tc := ⟨.hbm, 188, rfl⟩
abbrev main_v133 : Ref sig .tc := ⟨.hbm, 189, rfl⟩
abbrev main_v134 : Ref sig .tc := ⟨.hbm, 190, rfl⟩
abbrev main_c_38 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_c_39 : Ref sig .tc := ⟨.hbm, 197, rfl⟩
abbrev main_v140 : Ref sig .tc := ⟨.hbm, 198, rfl⟩
abbrev main_v141 : Ref sig .tc := ⟨.hbm, 199, rfl⟩
abbrev main_c_40 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2048x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2048x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2048x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2048x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2048x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2048x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  shapeCasts_S131072_S131072x1 : S131072.ShapeCasts S131072x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  inb_S2048x192_S2048x192_0_0 : ∀ a, (![0, 0] : Fin 2 → Nat) a + S2048x192.size a ≤ S2048x192.size a
  h_S2048x192 : 0 < S2048x192.numel
  shapeCasts_S2048x192_S2048x192 : S2048x192.ShapeCasts S2048x192
  slices_S2048x192_o0_0_S2048x128 : S2048x192.Slices ![0, 0] S2048x128
  slices_S2048x192_o0_128_S2048x64 : S2048x192.Slices ![0, 128] S2048x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  reduces_S2048x64_S2048 : S2048x64.Reduces [1] S2048
  shapeCasts_S131072x1_S131072 : S131072x1.ShapeCasts S131072
  gather_S100000x128_S131072x1_S131072x128_1_0_n_n_0_1_1128_wf : GatherDims.WF S100000x128 S131072x1 S131072x128 [1] [0] [] [0] [] 1 ![1, 128]
  gather_S500x192_S131072x1_S131072x192_1_0_n_n_0_1_1192_wf : GatherDims.WF S500x192 S131072x1 S131072x192 [1] [0] [] [0] [] 1 ![1, 192]
  gather_S100000x64_S131072x1_S131072x64_1_0_n_n_0_1_164_wf : GatherDims.WF S100000x64 S131072x1 S131072x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x192.size a ≤ S131072x192.size a
  hwx0_2 : ∀ i : grid0.Coords, EltTy.bits .f32 = 32 ∨ (Rect.block (s := S131072x192) S2048x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S131072x64.size a
  hwx0_3 : ∀ i : grid0.Coords, EltTy.bits .f32 = 32 ∨ (Rect.block (s := S131072x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S131072x64.size a
  hwx0_4 : ∀ i : grid0.Coords, EltTy.bits .f32 = 32 ∨ (Rect.block (s := S131072x64) S2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S131072x64.size a
  hwx0_5 : ∀ i : grid0.Coords, EltTy.bits .f32 = 32 ∨ (Rect.block (s := S131072x64) S2048x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S131072x64.size a
  hwx0_6 : ∀ i : grid0.Coords, EltTy.bits .f32 = 32 ∨ (Rect.block (s := S131072x64) S2048x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x64.size a ≤ S131072x64.size a
  hwx0_7 : ∀ i : grid0.Coords, EltTy.bits .f32 = 32 ∨ (Rect.block (s := S131072x64) S2048x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x64.size a ≤ S131072x64.size a
  hwx0_8 : ∀ i : grid0.Coords, EltTy.bits .f32 = 32 ∨ (Rect.block (s := S131072x64) S2048x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x64.size a ≤ S131072x64.size a
  hwx0_9 : ∀ i : grid0.Coords, EltTy.bits .f32 = 32 ∨ (Rect.block (s := S131072x64) S2048x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x64.size a ≤ S131072x64.size a
  hwx0_10 : ∀ i : grid0.Coords, EltTy.bits .f32 = 32 ∨ (Rect.block (s := S131072x64) S2048x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x64.size a ≤ S131072x64.size a
  hwx0_11 : ∀ i : grid0.Coords, EltTy.bits .f32 = 32 ∨ (Rect.block (s := S131072x64) S2048x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x64.size a ≤ S131072x64.size a
  hwx0_12 : ∀ i : grid0.Coords, EltTy.bits .f32 = 32 ∨ (Rect.block (s := S131072x64) S2048x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x64.size a ≤ S131072x64.size a
  hwx0_13 : ∀ i : grid0.Coords, EltTy.bits .f32 = 32 ∨ (Rect.block (s := S131072x64) S2048x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x64.size a ≤ S131072x64.size a
  hwx0_14 : ∀ i : grid0.Coords, EltTy.bits .f32 = 32 ∨ (Rect.block (s := S131072x64) S2048x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x64.size a ≤ S131072x64.size a
  hwx0_15 : ∀ i : grid0.Coords, EltTy.bits .f32 = 32 ∨ (Rect.block (s := S131072x64) S2048x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x64.size a ≤ S131072x64.size a
  hwx0_16 : ∀ i : grid0.Coords, EltTy.bits .f32 = 32 ∨ (Rect.block (s := S131072x64) S2048x64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x64.size a ≤ S131072x64.size a
  hwx0_17 : ∀ i : grid0.Coords, EltTy.bits .f32 = 32 ∨ (Rect.block (s := S131072x64) S2048x64.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2048x64.size a ≤ S131072x64.size a
  hwx0_18 : ∀ i : grid0.Coords, EltTy.bits .f32 = 32 ∨ (Rect.block (s := S131072x64) S2048x64.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2048x64.size a ≤ S131072x64.size a
  hwx0_19 : ∀ i : grid0.Coords, EltTy.bits .f32 = 32 ∨ (Rect.block (s := S131072x64) S2048x64.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2048x64.size a ≤ S131072x64.size a
  hwx0_20 : ∀ i : grid0.Coords, EltTy.bits .f32 = 32 ∨ (Rect.block (s := S131072x64) S2048x64.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x1.size a ≤ S131072x1.size a
  hwx0_21 : ∀ i : grid0.Coords, EltTy.bits .f32 = 32 ∨ (Rect.block (s := S131072x1) S2048x1.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2048x1.size a ≤ S131072x1.size a
  hwx0_22 : ∀ i : grid0.Coords, EltTy.bits .f32 = 32 ∨ (Rect.block (s := S131072x1) S2048x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x1.size a ≤ S131072x1.size a
  hwx0_23 : ∀ i : grid0.Coords, EltTy.bits .f32 = 32 ∨ (Rect.block (s := S131072x1) S2048x1.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2048x1.size a ≤ S131072x1.size a
  hwx0_24 : ∀ i : grid0.Coords, EltTy.bits .f32 = 32 ∨ (Rect.block (s := S131072x1) S2048x1.size (cc0_transform_24 i) (hinb0_24 i)).WholeWords (EltTy.packing .f32)

variable [Facts₀]

def gather_S100000x128_S131072x1_S131072x128_1_0_n_n_0_1_1128 : GatherDims S100000x128 S131072x1 S131072x128 where
  offsetDims := [1]
  collapsedSliceDims := [0]
  operandBatchingDims := []
  startIndicesBatchingDims := []
  startIndexMap := [0]
  indexVectorDim := 1
  sliceSizes := ![1, 128]
  wf := gather_S100000x128_S131072x1_S131072x128_1_0_n_n_0_1_1128_wf
def gather_S500x192_S131072x1_S131072x192_1_0_n_n_0_1_1192 : GatherDims S500x192 S131072x1 S131072x192 where
  offsetDims := [1]
  collapsedSliceDims := [0]
  operandBatchingDims := []
  startIndicesBatchingDims := []
  startIndexMap := [0]
  indexVectorDim := 1
  sliceSizes := ![1, 192]
  wf := gather_S500x192_S131072x1_S131072x192_1_0_n_n_0_1_1192_wf
def gather_S100000x64_S131072x1_S131072x64_1_0_n_n_0_1_164 : GatherDims S100000x64 S131072x1 S131072x64 where
  offsetDims := [1]
  collapsedSliceDims := [0]
  operandBatchingDims := []
  startIndicesBatchingDims := []
  startIndexMap := [0]
  indexVectorDim := 1
  sliceSizes := ![1, 64]
  wf := gather_S100000x64_S131072x1_S131072x64_1_0_n_n_0_1_164_wf

abbrev win0_0 : Pipeline.Window sig grid0 :=
  Pipeline.Window.ofSpec (Memref.whole main_v6) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2048x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S2048x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41) S2048x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v48) S2048x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v55) S2048x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v62) S2048x64.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v69) S2048x64.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v76) S2048x64.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v83) S2048x64.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v90) S2048x64.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v97) S2048x64.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v104) S2048x64.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v111) S2048x64.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v118) S2048x64.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v125) S2048x64.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v132) S2048x64.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v139) S2048x64.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v146) S2048x64.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_v147) S2048x1.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_v148) S2048x1.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_v149) S2048x1.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_v150) S2048x1.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S131072 : Shape := ⟨1, ![131072]⟩
abbrev S100000x128 : Shape := ⟨2, ![100000, 128]⟩
abbrev S500x192 : Shape := ⟨2, ![500, 192]⟩
abbrev S100000x64 : Shape := ⟨2, ![100000, 64]⟩
abbrev S131072x1 : Shape := ⟨2, ![131072, 1]⟩
abbrev S_ : Shape := ⟨0, ![]⟩
abbrev S131072x128 : Shape := ⟨2, ![131072, 128]⟩
abbrev S131072x64 : Shape := ⟨2, ![131072, 64]⟩
abbrev S131072x192 : Shape := ⟨2, ![131072, 192]⟩

abbrev nBuf : Space → Nat
  | .hbm => 249
  | .vmem => 0
  | .smem => 0
  | _ => 0

abbrev hbmTy0_0 (i : Nat) : BufTy := match i % 128 with
  | 0 => ⟨S131072, .i32⟩
  | 1 => ⟨S131072, .i32⟩
  | 2 => ⟨S131072, .i32⟩
  | 3 => ⟨S131072, .f32⟩
  | 4 => ⟨S131072, .f32⟩
  | 5 => ⟨S131072, .f32⟩
  | 6 => ⟨S100000x128, .f32⟩
  | 7 => ⟨S500x192, .f32⟩
  | 8 => ⟨S100000x64, .f32⟩
  | 9 => ⟨S100000x64, .f32⟩
  | 10 => ⟨S100000x64, .f32⟩
  | 11 => ⟨S100000x64, .f32⟩
  | 12 => ⟨S100000x64, .f32⟩
  | 13 => ⟨S100000x64, .f32⟩
  | 14 => ⟨S100000x64, .f32⟩
  | 15 => ⟨S100000x64, .f32⟩
  | 16 => ⟨S100000x64, .f32⟩
  | 17 => ⟨S131072x1, .f32⟩
  | 18 => ⟨S131072x1, .f32⟩
  | 19 => ⟨S131072x1, .f32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x128, .f32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S131072x1, .i32⟩
  | 37 => ⟨S131072x64, .f32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S131072x64, .f32⟩
  | 47 => ⟨S131072x64, .f32⟩
  | 48 => ⟨S131072x64, .f32⟩
  | 49 => ⟨S_, .i32⟩
  | 50 => ⟨S131072, .i32⟩
  | 51 => ⟨S131072, .i1⟩
  | 52 => ⟨S_, .i32⟩
  | 53 => ⟨S131072, .i32⟩
  | 54 => ⟨S131072, .i32⟩
  | 55 => ⟨S131072, .i32⟩
  | 56 => ⟨S131072x1, .i32⟩
  | 57 => ⟨S131072x64, .f32⟩
  | 58 => ⟨S131072x64, .f32⟩
  | 59 => ⟨S131072x64, .f32⟩
  | 60 => ⟨S131072x64, .f32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S131072x64, .f32⟩
  | 70 => ⟨S_, .i32⟩
  | 71 => ⟨S131072, .i32⟩
  | 72 => ⟨S131072, .i1⟩
  | 73 => ⟨S_, .i32⟩
  | 74 => ⟨S131072, .i32⟩
  | 75 => ⟨S131072, .i32⟩
  | 76 => ⟨S131072, .i32⟩
  | 77 => ⟨S131072x1, .i32⟩
  | 78 => ⟨S131072x64, .f32⟩
  | 79 => ⟨S131072x64, .f32⟩
  | 80 => ⟨S131072x64, .f32⟩
  | 81 => ⟨S_, .i32⟩
  | 82 => ⟨S131072, .i32⟩
  | 83 => ⟨S131072, .i1⟩
  | 84 => ⟨S_, .i32⟩
  | 85 => ⟨S131072, .i32⟩
  | 86 => ⟨S131072, .i32⟩
  | 87 => ⟨S131072, .i32⟩
  | 88 => ⟨S131072x1, .i32⟩
  | 89 => ⟨S131072x64, .f32⟩
  | 90 => ⟨S131072x64, .f32⟩
  | 91 => ⟨S131072x64, .f32⟩
  | 92 => ⟨S131072x64, .f32⟩
  | 93 => ⟨S_, .i32⟩
  | 94 => ⟨S131072, .i32⟩
  | 95 => ⟨S131072, .i1⟩
  | 96 => ⟨S_, .i32⟩
  | 97 => ⟨S131072, .i32⟩
  | 98 => ⟨S131072, .i32⟩
  | 99 => ⟨S131072, .i32⟩
  | 100 => ⟨S131072x1, .i32⟩
  | 101 => ⟨S131072x64, .f32⟩
  | 102 => ⟨S_, .i32⟩
  | 103 => ⟨S131072, .i32⟩
  | 104 => ⟨S131072, .i1⟩
  | 105 => ⟨S_, .i32⟩
  | 106 => ⟨S131072, .i32⟩
  | 107 => ⟨S131072, .i32⟩
  | 108 => ⟨S131072, .i32⟩
  | 109 => ⟨S131072x1, .i32⟩
  | 110 => ⟨S131072x64, .f32⟩
  | 111 => ⟨S131072x64, .f32⟩
  | 112 => ⟨S131072x64, .f32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S131072x64, .f32⟩
  | 122 => ⟨S131072x64, .f32⟩
  | 123 => ⟨S131072x64, .f32⟩
  | 124 => ⟨S131072x64, .f32⟩
  | 125 => ⟨S131072x64, .f32⟩
  | 126 => ⟨S131072x64, .f32⟩
  | 127 => ⟨S131072x192, .f32⟩
  | _ => ⟨S131072, .i32⟩

abbrev hbmTy0_1 (i : Nat) : BufTy := match i % 128 with
  | 0 => ⟨S_, .i32⟩
  | 1 => ⟨S131072, .i32⟩
  | 2 => ⟨S131072, .i1⟩
  | 3 => ⟨S_, .i32⟩
  | 4 => ⟨S131072, .i32⟩
  | 5 => ⟨S131072, .i32⟩
  | 6 => ⟨S131072, .i32⟩
  | 7 => ⟨S131072x1, .i32⟩
  | 8 => ⟨S131072x128, .f32⟩
  | 9 => ⟨S_, .i32⟩
  | 10 => ⟨S131072, .i32⟩
  | 11 => ⟨S131072, .i1⟩
  | 12 => ⟨S_, .i32⟩
  | 13 => ⟨S131072, .i32⟩
  | 14 => ⟨S131072, .i32⟩
  | 15 => ⟨S131072, .i32⟩
  | 16 => ⟨S131072x1, .i32⟩
  | 17 => ⟨S131072x64, .f32⟩
  | 18 => ⟨S_, .i32⟩
  | 19 => ⟨S131072, .i32⟩
  | 20 => ⟨S131072, .i1⟩
  | 21 => ⟨S_, .i32⟩
  | 22 => ⟨S131072, .i32⟩
  | 23 => ⟨S131072, .i32⟩
  | 24 => ⟨S131072, .i32⟩
  | 25 => ⟨S131072x1, .i32⟩
  | 26 => ⟨S131072x64, .f32⟩
  | 27 => ⟨S131072x64, .f32⟩
  | 28 => ⟨S131072x64, .f32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S131072x1, .i32⟩
  | 37 => ⟨S131072x64, .f32⟩
  | 38 => ⟨S131072x64, .f32⟩
  | 39 => ⟨S131072x64, .f32⟩
  | 40 => ⟨S131072x64, .f32⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S131072x1, .i32⟩
  | 49 => ⟨S131072x64, .f32⟩
  | 50 => ⟨S_, .i32⟩
  | 51 => ⟨S131072, .i32⟩
  | 52 => ⟨S131072, .i1⟩
  | 53 => ⟨S_, .i32⟩
  | 54 => ⟨S131072, .i32⟩
  | 55 => ⟨S131072, .i32⟩
  | 56 => ⟨S131072, .i32⟩
  | 57 => ⟨S131072x1, .i32⟩
  | 58 => ⟨S131072x64, .f32⟩
  | 59 => ⟨S131072x64, .f32⟩
  | 60 => ⟨S131072x64, .f32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S131072x64, .f32⟩
  | 70 => ⟨S131072x64, .f32⟩
  | 71 => ⟨S131072x64, .f32⟩
  | 72 => ⟨S131072x64, .f32⟩
  | 73 => ⟨S_, .i32⟩
  | 74 => ⟨S131072, .i32⟩
  | 75 => ⟨S131072, .i1⟩
  | 76 => ⟨S_, .i32⟩
  | 77 => ⟨S131072, .i32⟩
  | 78 => ⟨S131072, .i32⟩
  | 79 => ⟨S131072, .i32⟩
  | 80 => ⟨S131072x1, .i32⟩
  | 81 => ⟨S131072x64, .f32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S131072x64, .f32⟩
  | 91 => ⟨S131072x64, .f32⟩
  | 92 => ⟨S131072x64, .f32⟩
  | 93 => ⟨S_, .i32⟩
  | 94 => ⟨S131072, .i32⟩
  | 95 => ⟨S131072, .i1⟩
  | 96 => ⟨S_, .i32⟩
  | 97 => ⟨S131072, .i32⟩
  | 98 => ⟨S131072, .i32⟩
  | 99 => ⟨S131072, .i32⟩
  | 100 => ⟨S131072x1, .i32⟩
  | 101 => ⟨S131072x64, .f32⟩
  | 102 => ⟨S131072x64, .f32⟩
  | 103 => ⟨S131072x64, .f32⟩
  | 104 => ⟨S131072x64, .f32⟩
  | 105 => ⟨S131072x64, .f32⟩
  | 106 => ⟨S131072x64, .f32⟩
  | 107 => ⟨S131072x192, .f32⟩
  | 108 => ⟨S_, .i32⟩
  | 109 => ⟨S131072, .i32⟩
  | 110 => ⟨S131072, .i1⟩
  | 111 => ⟨S_, .i32⟩
  | 112 => ⟨S131072, .i32⟩
  | 113 => ⟨S131072, .i32⟩
  | 114 => ⟨S131072, .i32⟩
  | 115 => ⟨S131072x1, .i32⟩
  | 116 => ⟨S131072x192, .f32⟩
  | 117 => ⟨S131072x192, .f32⟩
  | 118 => ⟨S131072x192, .f32⟩
  | 119 => ⟨S_, .f32⟩
  | 120 => ⟨S131072, .f32⟩
  | _ => ⟨S131072, .i32⟩

abbrev hbmTy (i : Nat) : BufTy := match i / 128 with
  | 0 => hbmTy0_0 i
  | 1 => hbmTy0_1 i
  | _ => ⟨S131072, .i32⟩

abbrev bufTy : (tb : Table) → Fin (tcTables nBuf tb) → BufTy
  | .hbm, ⟨i, _⟩ => hbmTy i
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_13 : Ref sig .tc := ⟨.hbm, 93, rfl⟩
abbrev main_v62 : Ref sig .tc := ⟨.hbm, 94, rfl⟩
abbrev main_v63 : Ref sig .tc := ⟨.hbm, 95, rfl⟩
abbrev main_c_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_15 : Ref sig .tc := ⟨.hbm, 102, rfl⟩
abbrev main_v69 : Ref sig .tc := ⟨.hbm, 103, rfl⟩
abbrev main_v70 : Ref sig .tc := ⟨.hbm, 104, rfl⟩
abbrev main_c_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_17 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_19 : Ref sig .tc := ⟨.hbm, 128, rfl⟩
abbrev main_v91 : Ref sig .tc := ⟨.hbm, 129, rfl⟩
abbrev main_v92 : Ref sig .tc := ⟨.hbm, 130, rfl⟩
abbrev main_c_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_21 : Ref sig .tc := ⟨.hbm, 137, rfl⟩
abbrev main_v98 : Ref sig .tc := ⟨.hbm, 138, rfl⟩
abbrev main_v99 : Ref sig .tc := ⟨.hbm, 139, rfl⟩
abbrev main_c_22 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_c_23 : Ref sig .tc := ⟨.hbm, 146, rfl⟩
abbrev main_v105 : Ref sig .tc := ⟨.hbm, 147, rfl⟩
abbrev main_v106 : Ref sig .tc := ⟨.hbm, 148, rfl⟩
abbrev main_c_24 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_c_25 : Ref sig .tc := ⟨.hbm, 157, rfl⟩
abbrev main_v114 : Ref sig .tc := ⟨.hbm, 158, rfl⟩
abbrev main_v115 : Ref sig .tc := ⟨.hbm, 159, rfl⟩
abbrev main_c_26 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_27 : Ref sig .tc := ⟨.hbm, 169, rfl⟩
abbrev main_v124 : Ref sig .tc := ⟨.hbm, 170, rfl⟩
abbrev main_v125 : Ref sig .tc := ⟨.hbm, 171, rfl⟩
abbrev main_c_28 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_c_29 : Ref sig .tc := ⟨.hbm, 178, rfl⟩
abbrev main_v131 : Ref sig .tc := ⟨.hbm, 179, rfl⟩
abbrev main_v132 : Ref sig .tc := ⟨.hbm, 180, rfl⟩
abbrev main_c_30 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_31 : Ref sig .tc := ⟨.hbm, 189, rfl⟩
abbrev main_v140 : Ref sig .tc := ⟨.hbm, 190, rfl⟩
abbrev main_v141 : Ref sig .tc := ⟨.hbm, 191, rfl⟩
abbrev main_c_32 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_c_33 : Ref sig .tc := ⟨.hbm, 201, rfl⟩
abbrev main_v150 : Ref sig .tc := ⟨.hbm, 202, rfl⟩
abbrev main_v151 : Ref sig .tc := ⟨.hbm, 203, rfl⟩
abbrev main_c_34 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_c_35 : Ref sig .tc := ⟨.hbm, 210, rfl⟩
abbrev main_v157 : Ref sig .tc := ⟨.hbm, 211, rfl⟩
abbrev main_v158 : Ref sig .tc := ⟨.hbm, 212, rfl⟩
abbrev main_c_36 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_c_37 : Ref sig .tc := ⟨.hbm, 221, rfl⟩
abbrev main_v166 : Ref sig .tc := ⟨.hbm, 222, rfl⟩
abbrev main_v167 : Ref sig .tc := ⟨.hbm, 223, rfl⟩
abbrev main_c_38 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_c_39 : Ref sig .tc := ⟨.hbm, 236, rfl⟩
abbrev main_v179 : Ref sig .tc := ⟨.hbm, 237, rfl⟩
abbrev main_v180 : Ref sig .tc := ⟨.hbm, 238, rfl⟩
abbrev main_c_40 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_cst : Ref sig .tc := ⟨.hbm, 247, rfl⟩
abbrev main_v188 : Ref sig .tc := ⟨.hbm, 248, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x64_0_1 : S131072x1.BroadcastsInDim S131072x64 (![0, 1] : Fin 2 → Fin S131072x64.rank)
  concatenates_S131072x128_S131072x64_S131072x192_d1 : Shape.Concatenates [S131072x128, S131072x64] S131072x192 1
  reducesTo_S131072x192_S131072_d1 : S131072x192.ReducesTo [1] S131072
  h_S_ : 0 < S_.numel
  gather_S100000x128_S131072x1_S131072x128_1_0_n_n_0_1_1128_wf : GatherDims.WF S100000x128 S131072x1 S131072x128 [1] [0] [] [0] [] 1 ![1, 128]
  gather_S100000x64_S131072x1_S131072x64_1_0_n_n_0_1_164_wf : GatherDims.WF S100000x64 S131072x1 S131072x64 [1] [0] [] [0] [] 1 ![1, 64]
  gather_S500x192_S131072x1_S131072x192_1_0_n_n_0_1_1192_wf : GatherDims.WF S500x192 S131072x1 S131072x192 [1] [0] [] [0] [] 1 ![1, 192]

variable [Facts₀]

def gather_S100000x128_S131072x1_S131072x128_1_0_n_n_0_1_1128 : GatherDims S100000x128 S131072x1 S131072x128 where
  offsetDims := [1]
  collapsedSliceDims := [0]
  operandBatchingDims := []
  startIndicesBatchingDims := []
  startIndexMap := [0]
  indexVectorDim := 1
  sliceSizes := ![1, 128]
  wf := gather_S100000x128_S131072x1_S131072x128_1_0_n_n_0_1_1128_wf
def gather_S100000x64_S131072x1_S131072x64_1_0_n_n_0_1_164 : GatherDims S100000x64 S131072x1 S131072x64 where
  offsetDims := [1]
  collapsedSliceDims := [0]
  operandBatchingDims := []
  startIndicesBatchingDims := []
  startIndexMap := [0]
  indexVectorDim := 1
  sliceSizes := ![1, 64]
  wf := gather_S100000x64_S131072x1_S131072x64_1_0_n_n_0_1_164_wf
def gather_S500x192_S131072x1_S131072x192_1_0_n_n_0_1_1192 : GatherDims S500x192 S131072x1 S131072x192 where
  offsetDims := [1]
  collapsedSliceDims := [0]
  operandBatchingDims := []
  startIndicesBatchingDims := []
  startIndexMap := [0]
  indexVectorDim := 1
  sliceSizes := ![1, 192]
  wf := gather_S500x192_S131072x1_S131072x192_1_0_n_n_0_1_1192_wf

class Facts : Prop extends Facts₀ where

variable [Facts]
-- ==== Proof.Spec.lean ====
/-
  The score of a (subject, relation, object, date) row as one function of the looked-up rows.

  For row `b` an entity contributes 192 numbers: its 128 static coordinates `e[b,·]`, followed by 64 time-dependent
  coordinates  T[b,k] = ya·sin(yf·y_b + yp) + ma·sin(mf·m_b + mp) + da·sin(df·d_b + dp),  every amplitude, frequency
  and phase read at `(b,k)` of the rows looked up for that entity, and `y_b, m_b, d_b` the row's date. The score is
      Σ_{k<192} (subj[b,k] · rel[b,k]) · obj[b,k].
  Cutting the sum at column 128 gives the two-part arrangement
      Σ_{k<128} (e_s[b,k]·rel[b,k])·e_o[b,k]  +  Σ_{k<64} (T_s[b,k]·rel[b,128+k])·T_o[b,k].
  The two arrangements are equal on the extended reals: the only law used is that a finite sum over `Fin (128+64)`
  is the sum over the first 128 indices plus the sum over the last 64 (commutativity and associativity of `+`), which
  holds with infinite terms as well, so no finiteness of the inputs is needed.
-/
import Idealize.ShloMosaic.PureOps.Ideal
import Idealize.ShloMosaic.Lib.ValueIdx

noncomputable section

namespace Cert.Score

open Idealize.ShloMosaic Idealize.ShloMosaic.ValueIdx

/-- An array of 131072 rows of `d` extended reals. -/
abbrev Rows (d : Nat) : Type := (⟨2, ![131072, d]⟩ : Shape).Idx → EReal

/-- One periodic component at `(b,k)`: amplitude · sin(frequency · t_b + phase); `t` is a column. -/
def wave (amp frq phi : Rows 64) (t : Rows 1) (b : Fin 131072) (k : Fin 64) : EReal :=
  amp (ix2 b k) * Ideal.sin (frq (ix2 b k) * t (ix2 b 0) + phi (ix2 b k))

/-- The rows looked up for one entity: its static coordinates and, for year, month and day, the frequencies, phases
    and amplitudes of its time-dependent coordinates. -/
structure Entity where
  e : Rows 128
  yf : Rows 64
  mf : Rows 64
  df : Rows 64
  yp : Rows 64
  mp : Rows 64
  dp : Rows 64
  ya : Rows 64
  ma : Rows 64
  da : Rows 64

/-- The time-dependent coordinate `k` of row `b`: the year's component plus the month's, plus the day's. -/
def Entity.dia (E : Entity) (y m d : Rows 1) (b : Fin 131072) (k : Fin 64) : EReal :=
  wave E.ya E.yf E.yp y b k + wave E.ma E.mf E.mp m b k + wave E.da E.df E.dp d b k

/-- Column `k < 128` of a 192-wide row. -/
abbrev colL (k : Fin 128) : Fin 192 := ⟨k.val, by omega⟩
/-- Column `128 + k` of a 192-wide row. -/
abbrev colR (k : Fin 64) : Fin 192 := ⟨128 + k.val, by omega⟩

/-- The score in two parts: the static coordinates' triple product summed over 128 columns, plus the time-dependent
    coordinates' summed over 64, the relation's row read at columns `k` and `128 + k`. -/
def score (S O : Entity) (rel : Rows 192) (y m d : Rows 1) (b : Fin 131072) : EReal :=
  (∑ k : Fin 128, S.e (ix2 b k) * rel (ix2 b (colL k)) * O.e (ix2 b k))
    + ∑ k : Fin 64, S.dia y m d b k * rel (ix2 b (colR k)) * O.dia y m d b k

/-- Coordinate `k` of an entity's 192-wide row: static below column 128, time-dependent from it on. -/
def Entity.wide (E : Entity) (y m d : Rows 1) (b : Fin 131072) (k : Fin 192) : EReal :=
  if h : k.val < 128 then E.e (ix2 b ⟨k.val, h⟩) else E.dia y m d b ⟨k.val - 128, by omega⟩

/-- The score as one sum over the 192 columns. -/
def scoreWide (S O : Entity) (rel : Rows 192) (y m d : Rows 1) (b : Fin 131072) : EReal :=
  ∑ k : Fin 192, S.wide y m d b k * rel (ix2 b k) * O.wide y m d b k

theorem Entity.wide_colL (E : Entity) (y m d : Rows 1) (b : Fin 131072) (k : Fin 128) :
    E.wide y m d b (colL k) = E.e (ix2 b k) := by
  unfold Entity.wide
  rw [dif_pos (show (colL k).val < 128 from k.isLt)]

theorem Entity.wide_colR (E : Entity) (y m d : Rows 1) (b : Fin 131072) (k : Fin 64) :
    E.wide y m d b (colR k) = E.dia y m d b k := by
  unfold Entity.wide
  rw [dif_neg (show ¬ (colR k).val < 128 by show ¬ 128 + k.val < 128; omega)]
  exact congrArg (E.dia y m d b) (Fin.ext (by show 128 + k.val - 128 = k.val; omega))

/-- A sum over 192 columns is the sum over the first 128 plus the sum over the last 64. -/
theorem sum_192 (f : Fin 192 → EReal) : ∑ k : Fin 192, f k = (∑ k : Fin 128, f (colL k)) + ∑ k : Fin 64, f (colR k) := by
  exact Fin.sum_univ_add (a := 128) (b := 64) (f : Fin (128 + 64) → EReal)

/-- The one-sum arrangement is the two-part arrangement. -/
theorem scoreWide_eq_score (S O : Entity) (rel : Rows 192) (y m d : Rows 1) (b : Fin 131072) :
    scoreWide S O rel y m d b = score S O rel y m d b := by
  unfold scoreWide score
  rw [sum_192]
  simp only [Entity.wide_colL, Entity.wide_colR]

end Cert.Score

end
-- ==== Proof.KernelBody.lean ====
/-
  What the kernel body stores for one row of a block.

  The body reads, for a block of 2048 rows, the looked-up rows of the subject (static coordinates, and year / month / day
  frequencies, phases, amplitudes), of the object (the same ten), the relation's 192-wide rows and the three date
  columns, and stores one number per row:
      Σ_{k<128} (e_s[p,k]·rel[p,k])·e_o[p,k]  +  Σ_{k<64} (T_s[p,k]·rel[p,128+k])·T_o[p,k],
  with  T[p,k] = (ya·sin(yf·y_p + yp) + ma·sin(mf·m_p + mp)) + da·sin(df·d_p + dp).  The date columns are broadcast along
  the 64 lanes, the relation's row is cut at column 128, and each lane sum starts from zero. Read at row `p`, with every
  block's row `p` equal to row `b` of a full-height array, this is the two-part score of row `b`.
-/
import proofs.«127167_j18786186953558_2_alg».proof.Proof.Gen.KernelIdeal.Frame
import proofs.«127167_j18786186953558_2_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.TcCoe

theorem hz : (![0, 0] : Fin 2 → Nat) = fun _ => 0 := funext fun a => by fin_cases a <;> rfl

/-- A date column broadcast along the 64 lanes reads, at `(p,k)`, the column's entry of row `p`. -/
theorem lanes_apply (v : FVec Ideal S2048x1 .f32) (p : Fin 2048) (k : Fin 64) :
    broadcastTo S2048x64 v broadcasts_S2048x1_S2048x64 (ix2 p k) = v (ix2 p 0) :=
  broadcastTo_apply v broadcasts_S2048x1_S2048x64 (ix2 p k) (ix2 p 0) (by
    intro a
    match a with
    | ⟨0, _⟩ => rfl
    | ⟨1, _⟩ => rfl)

/-- Columns `0 … 127` of the relation's block. -/
theorem left_apply (v : FVec Ideal S2048x192 .f32) (p : Fin 2048) (k : Fin 128) :
    extractStridedSlice S2048x128 ![0, 0] v slices_S2048x192_o0_0_S2048x128 (ix2 p k) = v (ix2 p (Cert.Score.colL k)) :=
  extractStridedSlice_apply ![0, 0] v slices_S2048x192_o0_0_S2048x128 (ix2 p k) (ix2 p (Cert.Score.colL k)) (by
    intro a
    match a with
    | ⟨0, _⟩ => show p.val = 0 + p.val; omega
    | ⟨1, _⟩ => show k.val = 0 + k.val; omega)

/-- Columns `128 … 191` of the relation's block. -/
theorem right_apply (v : FVec Ideal S2048x192 .f32) (p : Fin 2048) (k : Fin 64) :
    extractStridedSlice S2048x64 ![0, 128] v slices_S2048x192_o0_128_S2048x64 (ix2 p k) = v (ix2 p (Cert.Score.colR k)) :=
  extractStridedSlice_apply ![0, 128] v slices_S2048x192_o0_128_S2048x64 (ix2 p k) (ix2 p (Cert.Score.colR k)) (by
    intro a
    match a with
    | ⟨0, _⟩ => show p.val = 0 + p.val; omega
    | ⟨1, _⟩ => show 128 + k.val = 128 + k.val; rfl)

/-- A vector of 2048 entries seen as a column: entry `(p,0)` is entry `p`. -/
theorem col_apply (v : FVec Ideal S2048 .f32) (p : Fin 2048) :
    shapeCast S2048x1 v shapeCasts_S2048_S2048x1 (ix2 p 0) = v (ix1 p) :=
  shapeCast_apply v shapeCasts_S2048_S2048x1 (ix2 p 0) (ix1 p) (by
    rw [Shape.rowMajor_val_one, Shape.rowMajor_val_two]
    show p.val = p.val * 1 + 0
    omega)

/-- The lane sum of a 128-wide block at row `p`, started from zero, is the sum of the row's 128 entries. -/
theorem sum128_apply (src : FVec Ideal S2048x128 .f32) (hφ : FKind.Formats .f32)
    (hacc : (0x00000000#32 : BitVec 32) = FKind.add.neutral .f32 hφ) (p : Fin 2048) :
    multiReduction .add [1] S2048 src 0x00000000#32 reduces_S2048x128_S2048 hφ hacc (ix1 p) = ∑ k : Fin 128, src (ix2 p k) := by
  refine (Ideal.multiReduction_add_single src 0x00000000#32 reduces_S2048x128_S2048 hφ hacc (ix1 p)).trans ?_
  refine Finset.sum_congr rfl fun k _ => congrArg src (funext fun a => ?_)
  match a with
  | ⟨0, _⟩ => exact Fin.ext rfl
  | ⟨1, _⟩ => exact Fin.ext rfl

/-- The lane sum of a 64-wide block at row `p`, started from zero, is the sum of the row's 64 entries. -/
theorem sum64_apply (src : FVec Ideal S2048x64 .f32) (hφ : FKind.Formats .f32)
    (hacc : (0x00000000#32 : BitVec 32) = FKind.add.neutral .f32 hφ) (p : Fin 2048) :
    multiReduction .add [1] S2048 src 0x00000000#32 reduces_S2048x64_S2048 hφ hacc (ix1 p) = ∑ k : Fin 64, src (ix2 p k) := by
  refine (Ideal.multiReduction_add_single src 0x00000000#32 reduces_S2048x64_S2048 hφ hacc (ix1 p)).trans ?_
  refine Finset.sum_congr rfl fun k _ => congrArg src (funext fun a => ?_)
  match a with
  | ⟨0, _⟩ => exact Fin.ext rfl
  | ⟨1, _⟩ => exact Fin.ext rfl

/-- The year's and the month's components of one entity at `(p,k)`, added. -/
theorem pay5_apply (v0 v2 : Vec Ideal S2048x1 .f32) (v6 v8 v12 v17 v19 v23 : Vec Ideal S2048x64 .f32) (p : Fin 2048) (k : Fin 64) :
    k0_pay5 (F := Ideal) v0 v2 v6 v8 v12 v17 v19 v23 (ix2 p k)
      = v6 (ix2 p k) * Ideal.sin (v8 (ix2 p k) * v0 (ix2 p 0) + v12 (ix2 p k))
        + v17 (ix2 p k) * Ideal.sin (v19 (ix2 p k) * v2 (ix2 p 0) + v23 (ix2 p k)) := by
  unfold k0_pay5 k0_pay2 k0_pay3
  simp only [shapeCast_self]
  show v6 (ix2 p k) * Ideal.sin (v8 (ix2 p k) * broadcastTo S2048x64 v0 broadcasts_S2048x1_S2048x64 (ix2 p k) + v12 (ix2 p k))
      + v17 (ix2 p k) * Ideal.sin (v19 (ix2 p k) * broadcastTo S2048x64 v2 broadcasts_S2048x1_S2048x64 (ix2 p k) + v23 (ix2 p k)) = _
  rw [lanes_apply, lanes_apply]

/-- The day's frequency times the day, at `(p,k)`. -/
theorem pay7_apply (v4 : Vec Ideal S2048x1 .f32) (v31 : Vec Ideal S2048x64 .f32) (p : Fin 2048) (k : Fin 64) :
    k0_pay7 (F := Ideal) v4 v31 (ix2 p k) = v31 (ix2 p k) * v4 (ix2 p 0) := by
  unfold k0_pay7 k0_pay4
  simp only [shapeCast_self]
  show v31 (ix2 p k) * broadcastTo S2048x64 v4 broadcasts_S2048x1_S2048x64 (ix2 p k) = _
  rw [lanes_apply]

/-- Adding the day's component to the year's and month's, at `(p,k)`. -/
theorem pay8_apply (v28 v30 v34 : FVec Ideal S2048x64 .f32) (v35 : Vec Ideal S2048x64 .f32) (p : Fin 2048) (k : Fin 64) :
    k0_pay8 (F := Ideal) v28 v30 v34 v35 (ix2 p k) = v28 (ix2 p k) + v30 (ix2 p k) * Ideal.sin (v34 (ix2 p k) + v35 (ix2 p k)) := by
  unfold k0_pay8
  simp only [shapeCast_self]
  rfl

theorem pay6_eq (v : Vec Ideal S2048x64 .f32) : k0_pay6 (F := Ideal) v = v := by
  unfold k0_pay6; exact shapeCast_self v _
theorem pay2_eq (v : Vec Ideal S2048x1 .f32) : k0_pay2 (F := Ideal) v = v := by
  unfold k0_pay2; exact shapeCast_self v _
theorem pay3_eq (v : Vec Ideal S2048x1 .f32) : k0_pay3 (F := Ideal) v = v := by
  unfold k0_pay3; exact shapeCast_self v _
theorem pay4_eq (v : Vec Ideal S2048x1 .f32) : k0_pay4 (F := Ideal) v = v := by
  unfold k0_pay4; exact shapeCast_self v _

/-- The three components of the other entity at `(p,k)`: year plus month, plus day. -/
theorem pay9_apply (v1 v3 v5 : FVec Ideal S2048x1 .f32) (v41 v43 v47 v52 v54 v58 v64 v66 v70 : Vec Ideal S2048x64 .f32)
    (p : Fin 2048) (k : Fin 64) :
    k0_pay9 (F := Ideal) v1 v3 v5 v41 v43 v47 v52 v54 v58 v64 v66 v70 (ix2 p k)
      = v41 (ix2 p k) * Ideal.sin (v43 (ix2 p k) * v1 (ix2 p 0) + v47 (ix2 p k))
        + v52 (ix2 p k) * Ideal.sin (v54 (ix2 p k) * v3 (ix2 p 0) + v58 (ix2 p k))
        + v64 (ix2 p k) * Ideal.sin (v66 (ix2 p k) * v5 (ix2 p 0) + v70 (ix2 p k)) := by
  unfold k0_pay9
  simp only [shapeCast_self]
  show v41 (ix2 p k) * Ideal.sin (v43 (ix2 p k) * broadcastTo S2048x64 v1 broadcasts_S2048x1_S2048x64 (ix2 p k) + v47 (ix2 p k))
      + v52 (ix2 p k) * Ideal.sin (v54 (ix2 p k) * broadcastTo S2048x64 v3 broadcasts_S2048x1_S2048x64 (ix2 p k) + v58 (ix2 p k))
      + v64 (ix2 p k) * Ideal.sin (v66 (ix2 p k) * broadcastTo S2048x64 v5 broadcasts_S2048x1_S2048x64 (ix2 p k) + v70 (ix2 p k)) = _
  rw [lanes_apply, lanes_apply, lanes_apply]

/-- The stored value at row `p`: the static part's lane sum plus the time-dependent part's, the relation's row cut at
    column 128. -/
theorem pay1_apply (v40 v75 : FVec Ideal S2048x64 .f32) (v76 : Vec Ideal S2048x192 .f32) (v80 v83 : Vec Ideal S2048x128 .f32)
    (p : Fin 2048) :
    k0_pay1 (F := Ideal) v40 v75 v76 v80 v83 (ix2 p 0)
      = (∑ k : Fin 128, v80 (ix2 p k) * v76 (ix2 p (Cert.Score.colL k)) * v83 (ix2 p k))
        + ∑ k : Fin 64, v40 (ix2 p k) * v76 (ix2 p (Cert.Score.colR k)) * v75 (ix2 p k) := by
  unfold k0_pay1
  simp only [shapeCast_self]
  refine (congrArg₂ (· + ·) (col_apply _ p) (col_apply _ p)).trans ?_
  refine congrArg₂ (· + ·) ((sum128_apply _ _ _ p).trans ?_) ((sum64_apply _ _ _ p).trans ?_)
  · refine Finset.sum_congr rfl fun k _ => ?_
    show v80 (ix2 p k) * extractStridedSlice S2048x128 ![0, 0] v76 slices_S2048x192_o0_0_S2048x128 (ix2 p k) * v83 (ix2 p k) = _
    rw [left_apply]
  · refine Finset.sum_congr rfl fun k _ => ?_
    show v40 (ix2 p k) * extractStridedSlice S2048x64 ![0, 128] v76 slices_S2048x192_o0_128_S2048x64 (ix2 p k) * v75 (ix2 p k) = _
    rw [right_apply]

/-- ROW `p` OF WHAT THE BODY STORES is the score of row `b`, whenever row `p` of each block it loads is row `b` of the
    corresponding full-height array: the subject's ten arrays, the object's ten, the relation's rows and the date columns. -/
theorem body_row (x0 x1 : Vec Ideal S2048x128 .f32) (x2 : Vec Ideal S2048x192 .f32)
    (x3 x4 x5 x6 x7 x8 x9 x10 x11 x12 x13 x14 x15 x16 x17 x18 x19 x20 : Vec Ideal S2048x64 .f32)
    (x21 x22 x23 : Vec Ideal S2048x1 .f32)
    (S O : Cert.Score.Entity) (rel : Cert.Score.Rows 192) (y m d : Cert.Score.Rows 1) (p : Fin 2048) (b : Fin 131072)
    (h0 : ∀ k : Fin 128, x0 (ix2 p k) = S.e (ix2 b k)) (h1 : ∀ k : Fin 128, x1 (ix2 p k) = O.e (ix2 b k))
    (h2 : ∀ k : Fin 192, x2 (ix2 p k) = rel (ix2 b k))
    (h3 : ∀ k : Fin 64, x3 (ix2 p k) = S.yf (ix2 b k)) (h4 : ∀ k : Fin 64, x4 (ix2 p k) = S.mf (ix2 b k))
    (h5 : ∀ k : Fin 64, x5 (ix2 p k) = S.df (ix2 b k)) (h6 : ∀ k : Fin 64, x6 (ix2 p k) = S.yp (ix2 b k))
    (h7 : ∀ k : Fin 64, x7 (ix2 p k) = S.mp (ix2 b k)) (h8 : ∀ k : Fin 64, x8 (ix2 p k) = S.dp (ix2 b k))
    (h9 : ∀ k : Fin 64, x9 (ix2 p k) = S.ya (ix2 b k)) (h10 : ∀ k : Fin 64, x10 (ix2 p k) = S.ma (ix2 b k))
    (h11 : ∀ k : Fin 64, x11 (ix2 p k) = S.da (ix2 b k))
    (h12 : ∀ k : Fin 64, x12 (ix2 p k) = O.yf (ix2 b k)) (h13 : ∀ k : Fin 64, x13 (ix2 p k) = O.mf (ix2 b k))
    (h14 : ∀ k : Fin 64, x14 (ix2 p k) = O.df (ix2 b k)) (h15 : ∀ k : Fin 64, x15 (ix2 p k) = O.yp (ix2 b k))
    (h16 : ∀ k : Fin 64, x16 (ix2 p k) = O.mp (ix2 b k)) (h17 : ∀ k : Fin 64, x17 (ix2 p k) = O.dp (ix2 b k))
    (h18 : ∀ k : Fin 64, x18 (ix2 p k) = O.ya (ix2 b k)) (h19 : ∀ k : Fin 64, x19 (ix2 p k) = O.ma (ix2 b k))
    (h20 : ∀ k : Fin 64, x20 (ix2 p k) = O.da (ix2 b k))
    (h21 : x21 (ix2 p 0) = y (ix2 b 0)) (h22 : x22 (ix2 p 0) = m (ix2 b 0)) (h23 : x23 (ix2 p 0) = d (ix2 b 0)) :
    out0_24 (F := Ideal) x0 x1 x2 x3 x4 x5 x6 x7 x8 x9 x10 x11 x12 x13 x14 x15 x16 x17 x18 x19 x20 x21 x22 x23 (ix2 p 0)
      = Cert.Score.score S O rel y m d b := by
  unfold out0_24
  rw [View.canon_unit_zero hz]
  simp only [View.ld_unit_zero (S := S2048x1) hz, View.ld_unit_zero (S := S2048x64) hz,
    View.ld_unit_zero (S := S2048x192) hz, View.ld_unit_zero (S := S2048x128) hz]
  rw [pay1_apply]
  unfold Cert.Score.score
  refine congrArg₂ (· + ·) (Finset.sum_congr rfl fun k _ => ?_) (Finset.sum_congr rfl fun k _ => ?_)
  · rw [h0, h2, h1]
  · rw [pay8_apply, pay5_apply, pay7_apply, pay6_eq, pay9_apply, pay2_eq, pay3_eq, pay4_eq,
      h2, h3, h4, h5, h6, h7, h8, h9, h10, h11, h12, h13, h14, h15, h16, h17, h18, h19, h20, h21, h22, h23]
    rfl

end Cert.KernelIdeal.Body

end
-- ==== Proof.KernelBlocks.lean ====
/-
  Where a block sits in its array.

  The grid has 64 points; at point `t` every window's block index is `(t, 0)`, so the block's entry `(p, k)` is the
  array's entry `(2048·t + p, k)`: the block is rows `2048·t … 2048·t + 2047`, all columns. Hence each operand's
  block at point `t`, read at `(p, k)`, is the operand's array read at `(2048·t + p, k)`.
-/
import proofs.«127167_j18786186953558_2_alg».proof.Proof.KernelBody

set_option maxRecDepth 16384
set_option Elab.async false

noncomputable section

namespace Cert.KernelIdeal.Whole

open Cert.KernelIdeal Cert.KernelIdeal.Gen Idealize.ShloMosaic Idealize.ShloMosaic.ValueIdx Idealize.ShloMosaic.TcCoe
open Idealize.SL.Sem Idealize.ShloMosaic.Pipeline

variable (m : (ℓ : Loc nD τ sig) → Buf (Elt Ideal) ℓ) (ρ : Dev nD → PrngReg)

/-- Row `p` of point `t`'s block is row `2048·t + p` of the array. -/
def row (t : Fin cfg0.N) (p : Fin 2048) : Fin 131072 :=
  ⟨t.val * 2048 + p.val, by have := t.isLt; have hN : cfg0.N = 64 := N_0; have := p.isLt; omega⟩

/-! ## Every window's block index at point `t` is `(t, 0)` (decided over the 64 points) -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem idx15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)
theorem idx16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)
theorem idx17 : ∀ t : Fin cfg0.N, win0_17.index t (0 : Fin 2) = t.val ∧ win0_17.index t (1 : Fin 2) = 0 :=
  (by decide +kernel : ∀ t : Fin grid0.N, win0_17.index t (0 : Fin 2) = t.val ∧ win0_17.index t (1 : Fin 2) = 0)
theorem idx18 : ∀ t : Fin cfg0.N, win0_18.index t (0 : Fin 2) = t.val ∧ win0_18.index t (1 : Fin 2) = 0 :=
  (by decide +kernel : ∀ t : Fin grid0.N, win0_18.index t (0 : Fin 2) = t.val ∧ win0_18.index t (1 : Fin 2) = 0)
theorem idx19 : ∀ t : Fin cfg0.N, win0_19.index t (0 : Fin 2) = t.val ∧ win0_19.index t (1 : Fin 2) = 0 :=
  (by decide +kernel : ∀ t : Fin grid0.N, win0_19.index t (0 : Fin 2) = t.val ∧ win0_19.index t (1 : Fin 2) = 0)
theorem idx20 : ∀ t : Fin cfg0.N, win0_20.index t (0 : Fin 2) = t.val ∧ win0_20.index t (1 : Fin 2) = 0 :=
  (by decide +kernel : ∀ t : Fin grid0.N, win0_20.index t (0 : Fin 2) = t.val ∧ win0_20.index t (1 : Fin 2) = 0)
theorem idx21 : ∀ t : Fin cfg0.N, win0_21.index t (0 : Fin 2) = t.val ∧ win0_21.index t (1 : Fin 2) = 0 :=
  (by decide +kernel : ∀ t : Fin grid0.N, win0_21.index t (0 : Fin 2) = t.val ∧ win0_21.index t (1 : Fin 2) = 0)
theorem idx22 : ∀ t : Fin cfg0.N, win0_22.index t (0 : Fin 2) = t.val ∧ win0_22.index t (1 : Fin 2) = 0 :=
  (by decide +kernel : ∀ t : Fin grid0.N, win0_22.index t (0 : Fin 2) = t.val ∧ win0_22.index t (1 : Fin 2) = 0)
theorem idx23 : ∀ t : Fin cfg0.N, win0_23.index t (0 : Fin 2) = t.val ∧ win0_23.index t (1 : Fin 2) = 0 :=
  (by decide +kernel : ∀ t : Fin grid0.N, win0_23.index t (0 : Fin 2) = t.val ∧ win0_23.index t (1 : Fin 2) = 0)
theorem idx24 : ∀ t : Fin cfg0.N, win0_24.index t (0 : Fin 2) = t.val ∧ win0_24.index t (1 : Fin 2) = 0 :=
  (by decide +kernel : ∀ t : Fin grid0.N, win0_24.index t (0 : Fin 2) = t.val ∧ win0_24.index t (1 : Fin 2) = 0)

/-! ## Each block's entry `(p, k)` sits at `(2048·t + p, k)` of its array, so each operand's block at point `t`,
    read at `(p, k)`, is its array at `(2048·t + p, k)` -/

theorem emb0 (t : Fin cfg0.N) (p : Fin 2048) (k : Fin 128) :
    ((cfg0.win 0).blk t).view.emb (ix2 p k : S2048x128.Idx) = (ix2 (row t p) k : S131072x128.Idx) := by
  funext a
  apply Fin.ext
  match a with
  | ⟨0, _⟩ => show win0_0.index t (0 : Fin 2) * 2048 + 1 * p.val = t.val * 2048 + p.val; rw [(idx0 t).1]; omega
  | ⟨1, _⟩ => show win0_0.index t (1 : Fin 2) * 128 + 1 * k.val = k.val; rw [(idx0 t).2]; omega

theorem blk0 (c : Dev nD) (t : Fin cfg0.N) (p : Fin 2048) (k : Fin 128) :
    (iblk m c 0 t : Vec Ideal S2048x128 .f32) (ix2 p k) = (V m c main_v6 : S131072x128.Idx → Elt Ideal .f32) (ix2 (row t p) k) := by
  unfold iblk
  rw [View.read_apply]
  exact congrArg (V m c main_v6 : S131072x128.Idx → Elt Ideal .f32) (emb0 t p k)

theorem emb1 (t : Fin cfg0.N) (p : Fin 2048) (k : Fin 128) :
    ((cfg0.win 1).blk t).view.emb (ix2 p k : S2048x128.Idx) = (ix2 (row t p) k : S131072x128.Idx) := by
  funext a
  apply Fin.ext
  match a with
  | ⟨0, _⟩ => show win0_1.index t (0 : Fin 2) * 2048 + 1 * p.val = t.val * 2048 + p.val; rw [(idx1 t).1]; omega
  | ⟨1, _⟩ => show win0_1.index t (1 : Fin 2) * 128 + 1 * k.val = k.val; rw [(idx1 t).2]; omega

theorem blk1 (c : Dev nD) (t : Fin cfg0.N) (p : Fin 2048) (k : Fin 128) :
    (iblk m c 1 t : Vec Ideal S2048x128 .f32) (ix2 p k) = (V m c main_v13 : S131072x128.Idx → Elt Ideal .f32) (ix2 (row t p) k) := by
  unfold iblk
  rw [View.read_apply]
  exact congrArg (V m c main_v13 : S131072x128.Idx → Elt Ideal .f32) (emb1 t p k)

theorem emb2 (t : Fin cfg0.N) (p : Fin 2048) (k : Fin 192) :
    ((cfg0.win 2).blk t).view.emb (ix2 p k : S2048x192.Idx) = (ix2 (row t p) k : S131072x192.Idx) := by
  funext a
  apply Fin.ext
  match a with
  | ⟨0, _⟩ => show win0_2.index t (0 : Fin 2) * 2048 + 1 * p.val = t.val * 2048 + p.val; rw [(idx2 t).1]; omega
  | ⟨1, _⟩ => show win0_2.index t (1 : Fin 2) * 192 + 1 * k.val = k.val; rw [(idx2 t).2]; omega

theorem blk2 (c : Dev nD) (t : Fin cfg0.N) (p : Fin 2048) (k : Fin 192) :
    (iblk m c 2 t : Vec Ideal S2048x192 .f32) (ix2 p k) = (V m c main_v20 : S131072x192.Idx → Elt Ideal .f32) (ix2 (row t p) k) := by
  unfold iblk
  rw [View.read_apply]
  exact congrArg (V m c main_v20 : S131072x192.Idx → Elt Ideal .f32) (emb2 t p k)

theorem emb3 (t : Fin cfg0.N) (p : Fin 2048) (k : Fin 64) :
    ((cfg0.win 3).blk t).view.emb (ix2 p k : S2048x64.Idx) = (ix2 (row t p) k : S131072x64.Idx) := by
  funext a
  apply Fin.ext
  match a with
  | ⟨0, _⟩ => show win0_3.index t (0 : Fin 2) * 2048 + 1 * p.val = t.val * 2048 + p.val; rw [(idx3 t).1]; omega
  | ⟨1, _⟩ => show win0_3.index t (1 : Fin 2) * 64 + 1 * k.val = k.val; rw [(idx3 t).2]; omega

theorem blk3 (c : Dev nD) (t : Fin cfg0.N) (p : Fin 2048) (k : Fin 64) :
    (iblk m c 3 t : Vec Ideal S2048x64 .f32) (ix2 p k) = (V m c main_v27 : S131072x64.Idx → Elt Ideal .f32) (ix2 (row t p) k) := by
  unfold iblk
  rw [View.read_apply]
  exact congrArg (V m c main_v27 : S131072x64.Idx → Elt Ideal .f32) (emb3 t p k)

theorem emb4 (t : Fin cfg0.N) (p : Fin 2048) (k : Fin 64) :
    ((cfg0.win 4).blk t).view.emb (ix2 p k : S2048x64.Idx) = (ix2 (row t p) k : S131072x64.Idx) := by
  funext a
  apply Fin.ext
  match a with
  | ⟨0, _⟩ => show win0_4.index t (0 : Fin 2) * 2048 + 1 * p.val = t.val * 2048 + p.val; rw [(idx4 t).1]; omega
  | ⟨1, _⟩ => show win0_4.index t (1 : Fin 2) * 64 + 1 * k.val = k.val; rw [(idx4 t).2]; omega

theorem blk4 (c : Dev nD) (t : Fin cfg0.N) (p : Fin 2048) (k : Fin 64) :
    (iblk m c 4 t : Vec Ideal S2048x64 .f32) (ix2 p k) = (V m c main_v34 : S131072x64.Idx → Elt Ideal .f32) (ix2 (row t p) k) := by
  unfold iblk
  rw [View.read_apply]
  exact congrArg (V m c main_v34 : S131072x64.Idx → Elt Ideal .f32) (emb4 t p k)

theorem emb5 (t : Fin cfg0.N) (p : Fin 2048) (k : Fin 64) :
    ((cfg0.win 5).blk t).view.emb (ix2 p k : S2048x64.Idx) = (ix2 (row t p) k : S131072x64.Idx) := by
  funext a
  apply Fin.ext
  match a with
  | ⟨0, _⟩ => show win0_5.index t (0 : Fin 2) * 2048 + 1 * p.val = t.val * 2048 + p.val; rw [(idx5 t).1]; omega
  | ⟨1, _⟩ => show win0_5.index t (1 : Fin 2) * 64 + 1 * k.val = k.val; rw [(idx5 t).2]; omega

theorem blk5 (c : Dev nD) (t : Fin cfg0.N) (p : Fin 2048) (k : Fin 64) :
    (iblk m c 5 t : Vec Ideal S2048x64 .f32) (ix2 p k) = (V m c main_v41 : S131072x64.Idx → Elt Ideal .f32) (ix2 (row t p) k) := by
  unfold iblk
  rw [View.read_apply]
  exact congrArg (V m c main_v41 : S131072x64.Idx → Elt Ideal .f32) (emb5 t p k)

theorem emb6 (t : Fin cfg0.N) (p : Fin 2048) (k : Fin 64) :
    ((cfg0.win 6).blk t).view.emb (ix2 p k : S2048x64.Idx) = (ix2 (row t p) k : S131072x64.Idx) := by
  funext a
  apply Fin.ext
  match a with
  | ⟨0, _⟩ => show win0_6.index t (0 : Fin 2) * 2048 + 1 * p.val = t.val * 2048 + p.val; rw [(idx6 t).1]; omega
  | ⟨1, _⟩ => show win0_6.index t (1 : Fin 2) * 64 + 1 * k.val = k.val; rw [(idx6 t).2]; omega

theorem blk6 (c : Dev nD) (t : Fin cfg0.N) (p : Fin 2048) (k : Fin 64) :
    (iblk m c 6 t : Vec Ideal S2048x64 .f32) (ix2 p k) = (V m c main_v48 : S131072x64.Idx → Elt Ideal .f32) (ix2 (row t p) k) := by
  unfold iblk
  rw [View.read_apply]
  exact congrArg (V m c main_v48 : S131072x64.Idx → Elt Ideal .f32) (emb6 t p k)

theorem emb7 (t : Fin cfg0.N) (p : Fin 2048) (k : Fin 64) :
    ((cfg0.win 7).blk t).view.emb (ix2 p k : S2048x64.Idx) = (ix2 (row t p) k : S131072x64.Idx) := by
  funext a
  apply Fin.ext
  match a with
  | ⟨0, _⟩ => show win0_7.index t (0 : Fin 2) * 2048 + 1 * p.val = t.val * 2048 + p.val; rw [(idx7 t).1]; omega
  | ⟨1, _⟩ => show win0_7.index t (1 : Fin 2) * 64 + 1 * k.val = k.val; rw [(idx7 t).2]; omega

theorem blk7 (c : Dev nD) (t : Fin cfg0.N) (p : Fin 2048) (k : Fin 64) :
    (iblk m c 7 t : Vec Ideal S2048x64 .f32) (ix2 p k) = (V m c main_v55 : S131072x64.Idx → Elt Ideal .f32) (ix2 (row t p) k) := by
  unfold iblk
  rw [View.read_apply]
  exact congrArg (V m c main_v55 : S131072x64.Idx → Elt Ideal .f32) (emb7 t p k)

theorem emb8 (t : Fin cfg0.N) (p : Fin 2048) (k : Fin 64) :
    ((cfg0.win 8).blk t).view.emb (ix2 p k : S2048x64.Idx) = (ix2 (row t p) k : S131072x64.Idx) := by
  funext a
  apply Fin.ext
  match a with
  | ⟨0, _⟩ => show win0_8.index t (0 : Fin 2) * 2048 + 1 * p.val = t.val * 2048 + p.val; rw [(idx8 t).1]; omega
  | ⟨1, _⟩ => show win0_8.index t (1 : Fin 2) * 64 + 1 * k.val = k.val; rw [(idx8 t).2]; omega

theorem blk8 (c : Dev nD) (t : Fin cfg0.N) (p : Fin 2048) (k : Fin 64) :
    (iblk m c 8 t : Vec Ideal S2048x64 .f32) (ix2 p k) = (V m c main_v62 : S131072x64.Idx → Elt Ideal .f32) (ix2 (row t p) k) := by
  unfold iblk
  rw [View.read_apply]
  exact congrArg (V m c main_v62 : S131072x64.Idx → Elt Ideal .f32) (emb8 t p k)

theorem emb9 (t : Fin cfg0.N) (p : Fin 2048) (k : Fin 64) :
    ((cfg0.win 9).blk t).view.emb (ix2 p k : S2048x64.Idx) = (ix2 (row t p) k : S131072x64.Idx) := by
  funext a
  apply Fin.ext
  match a with
  | ⟨0, _⟩ => show win0_9.index t (0 : Fin 2) * 2048 + 1 * p.val = t.val * 2048 + p.val; rw [(idx9 t).1]; omega
  | ⟨1, _⟩ => show win0_9.index t (1 : Fin 2) * 64 + 1 * k.val = k.val; rw [(idx9 t).2]; omega

theorem blk9 (c : Dev nD) (t : Fin cfg0.N) (p : Fin 2048) (k : Fin 64) :
    (iblk m c 9 t : Vec Ideal S2048x64 .f32) (ix2 p k) = (V m c main_v69 : S131072x64.Idx → Elt Ideal .f32) (ix2 (row t p) k) := by
  unfold iblk
  rw [View.read_apply]
  exact congrArg (V m c main_v69 : S131072x64.Idx → Elt Ideal .f32) (emb9 t p k)

theorem emb10 (t : Fin cfg0.N) (p : Fin 2048) (k : Fin 64) :
    ((cfg0.win 10).blk t).view.emb (ix2 p k : S2048x64.Idx) = (ix2 (row t p) k : S131072x64.Idx) := by
  funext a
  apply Fin.ext
  match a with
  | ⟨0, _⟩ => show win0_10.index t (0 : Fin 2) * 2048 + 1 * p.val = t.val * 2048 + p.val; rw [(idx10 t).1]; omega
  | ⟨1, _⟩ => show win0_10.index t (1 : Fin 2) * 64 + 1 * k.val = k.val; rw [(idx10 t).2]; omega

theorem blk10 (c : Dev nD) (t : Fin cfg0.N) (p : Fin 2048) (k : Fin 64) :
    (iblk m c 10 t : Vec Ideal S2048x64 .f32) (ix2 p k) = (V m c main_v76 : S131072x64.Idx → Elt Ideal .f32) (ix2 (row t p) k) := by
  unfold iblk
  rw [View.read_apply]
  exact congrArg (V m c main_v76 : S131072x64.Idx → Elt Ideal .f32) (emb10 t p k)

theorem emb11 (t : Fin cfg0.N) (p : Fin 2048) (k : Fin 64) :
    ((cfg0.win 11).blk t).view.emb (ix2 p k : S2048x64.Idx) = (ix2 (row t p) k : S131072x64.Idx) := by
  funext a
  apply Fin.ext
  match a with
  | ⟨0, _⟩ => show win0_11.index t (0 : Fin 2) * 2048 + 1 * p.val = t.val * 2048 + p.val; rw [(idx11 t).1]; omega
  | ⟨1, _⟩ => show win0_11.index t (1 : Fin 2) * 64 + 1 * k.val = k.val; rw [(idx11 t).2]; omega

theorem blk11 (c : Dev nD) (t : Fin cfg0.N) (p : Fin 2048) (k : Fin 64) :
    (iblk m c 11 t : Vec Ideal S2048x64 .f32) (ix2 p k) = (V m c main_v83 : S131072x64.Idx → Elt Ideal .f32) (ix2 (row t p) k) := by
  unfold iblk
  rw [View.read_apply]
  exact congrArg (V m c main_v83 : S131072x64.Idx → Elt Ideal .f32) (emb11 t p k)

theorem emb12 (t : Fin cfg0.N) (p : Fin 2048) (k : Fin 64) :
    ((cfg0.win 12).blk t).view.emb (ix2 p k : S2048x64.Idx) = (ix2 (row t p) k : S131072x64.Idx) := by
  funext a
  apply Fin.ext
  match a with
  | ⟨0, _⟩ => show win0_12.index t (0 : Fin 2) * 2048 + 1 * p.val = t.val * 2048 + p.val; rw [(idx12 t).1]; omega
  | ⟨1, _⟩ => show win0_12.index t (1 : Fin 2) * 64 + 1 * k.val = k.val; rw [(idx12 t).2]; omega

theorem blk12 (c : Dev nD) (t : Fin cfg0.N) (p : Fin 2048) (k : Fin 64) :
    (iblk m c 12 t : Vec Ideal S2048x64 .f32) (ix2 p k) = (V m c main_v90 : S131072x64.Idx → Elt Ideal .f32) (ix2 (row t p) k) := by
  unfold iblk
  rw [View.read_apply]
  exact congrArg (V m c main_v90 : S131072x64.Idx → Elt Ideal .f32) (emb12 t p k)

theorem emb13 (t : Fin cfg0.N) (p : Fin 2048) (k : Fin 64) :
    ((cfg0.win 13).blk t).view.emb (ix2 p k : S2048x64.Idx) = (ix2 (row t p) k : S131072x64.Idx) := by
  funext a
  apply Fin.ext
  match a with
  | ⟨0, _⟩ => show win0_13.index t (0 : Fin 2) * 2048 + 1 * p.val = t.val * 2048 + p.val; rw [(idx13 t).1]; omega
  | ⟨1, _⟩ => show win0_13.index t (1 : Fin 2) * 64 + 1 * k.val = k.val; rw [(idx13 t).2]; omega

theorem blk13 (c : Dev nD) (t : Fin cfg0.N) (p : Fin 2048) (k : Fin 64) :
    (iblk m c 13 t : Vec Ideal S2048x64 .f32) (ix2 p k) = (V m c main_v97 : S131072x64.Idx → Elt Ideal .f32) (ix2 (row t p) k) := by
  unfold iblk
  rw [View.read_apply]
  exact congrArg (V m c main_v97 : S131072x64.Idx → Elt Ideal .f32) (emb13 t p k)

theorem emb14 (t : Fin cfg0.N) (p : Fin 2048) (k : Fin 64) :
    ((cfg0.win 14).blk t).view.emb (ix2 p k : S2048x64.Idx) = (ix2 (row t p) k : S131072x64.Idx) := by
  funext a
  apply Fin.ext
  match a with
  | ⟨0, _⟩ => show win0_14.index t (0 : Fin 2) * 2048 + 1 * p.val = t.val * 2048 + p.val; rw [(idx14 t).1]; omega
  | ⟨1, _⟩ => show win0_14.index t (1 : Fin 2) * 64 + 1 * k.val = k.val; rw [(idx14 t).2]; omega

theorem blk14 (c : Dev nD) (t : Fin cfg0.N) (p : Fin 2048) (k : Fin 64) :
    (iblk m c 14 t : Vec Ideal S2048x64 .f32) (ix2 p k) = (V m c main_v104 : S131072x64.Idx → Elt Ideal .f32) (ix2 (row t p) k) := by
  unfold iblk
  rw [View.read_apply]
  exact congrArg (V m c main_v104 : S131072x64.Idx → Elt Ideal .f32) (emb14 t p k)

theorem emb15 (t : Fin cfg0.N) (p : Fin 2048) (k : Fin 64) :
    ((cfg0.win 15).blk t).view.emb (ix2 p k : S2048x64.Idx) = (ix2 (row t p) k : S131072x64.Idx) := by
  funext a
  apply Fin.ext
  match a with
  | ⟨0, _⟩ => show win0_15.index t (0 : Fin 2) * 2048 + 1 * p.val = t.val * 2048 + p.val; rw [(idx15 t).1]; omega
  | ⟨1, _⟩ => show win0_15.index t (1 : Fin 2) * 64 + 1 * k.val = k.val; rw [(idx15 t).2]; omega

theorem blk15 (c : Dev nD) (t : Fin cfg0.N) (p : Fin 2048) (k : Fin 64) :
    (iblk m c 15 t : Vec Ideal S2048x64 .f32) (ix2 p k) = (V m c main_v111 : S131072x64.Idx → Elt Ideal .f32) (ix2 (row t p) k) := by
  unfold iblk
  rw [View.read_apply]
  exact congrArg (V m c main_v111 : S131072x64.Idx → Elt Ideal .f32) (emb15 t p k)

theorem emb16 (t : Fin cfg0.N) (p : Fin 2048) (k : Fin 64) :
    ((cfg0.win 16).blk t).view.emb (ix2 p k : S2048x64.Idx) = (ix2 (row t p) k : S131072x64.Idx) := by
  funext a
  apply Fin.ext
  match a with
  | ⟨0, _⟩ => show win0_16.index t (0 : Fin 2) * 2048 + 1 * p.val = t.val * 2048 + p.val; rw [(idx16 t).1]; omega
  | ⟨1, _⟩ => show win0_16.index t (1 : Fin 2) * 64 + 1 * k.val = k.val; rw [(idx16 t).2]; omega

theorem blk16 (c : Dev nD) (t : Fin cfg0.N) (p : Fin 2048) (k : Fin 64) :
    (iblk m c 16 t : Vec Ideal S2048x64 .f32) (ix2 p k) = (V m c main_v118 : S131072x64.Idx → Elt Ideal .f32) (ix2 (row t p) k) := by
  unfold iblk
  rw [View.read_apply]
  exact congrArg (V m c main_v118 : S131072x64.Idx → Elt Ideal .f32) (emb16 t p k)

theorem emb17 (t : Fin cfg0.N) (p : Fin 2048) (k : Fin 64) :
    ((cfg0.win 17).blk t).view.emb (ix2 p k : S2048x64.Idx) = (ix2 (row t p) k : S131072x64.Idx) := by
  funext a
  apply Fin.ext
  match a with
  | ⟨0, _⟩ => show win0_17.index t (0 : Fin 2) * 2048 + 1 * p.val = t.val * 2048 + p.val; rw [(idx17 t).1]; omega
  | ⟨1, _⟩ => show win0_17.index t (1 : Fin 2) * 64 + 1 * k.val = k.val; rw [(idx17 t).2]; omega

theorem blk17 (c : Dev nD) (t : Fin cfg0.N) (p : Fin 2048) (k : Fin 64) :
    (iblk m c 17 t : Vec Ideal S2048x64 .f32) (ix2 p k) = (V m c main_v125 : S131072x64.Idx → Elt Ideal .f32) (ix2 (row t p) k) := by
  unfold iblk
  rw [View.read_apply]
  exact congrArg (V m c main_v125 : S131072x64.Idx → Elt Ideal .f32) (emb17 t p k)

theorem emb18 (t : Fin cfg0.N) (p : Fin 2048) (k : Fin 64) :
    ((cfg0.win 18).blk t).view.emb (ix2 p k : S2048x64.Idx) = (ix2 (row t p) k : S131072x64.Idx) := by
  funext a
  apply Fin.ext
  match a with
  | ⟨0, _⟩ => show win0_18.index t (0 : Fin 2) * 2048 + 1 * p.val = t.val * 2048 + p.val; rw [(idx18 t).1]; omega
  | ⟨1, _⟩ => show win0_18.index t (1 : Fin 2) * 64 + 1 * k.val = k.val; rw [(idx18 t).2]; omega

theorem blk18 (c : Dev nD) (t : Fin cfg0.N) (p : Fin 2048) (k : Fin 64) :
    (iblk m c 18 t : Vec Ideal S2048x64 .f32) (ix2 p k) = (V m c main_v132 : S131072x64.Idx → Elt Ideal .f32) (ix2 (row t p) k) := by
  unfold iblk
  rw [View.read_apply]
  exact congrArg (V m c main_v132 : S131072x64.Idx → Elt Ideal .f32) (emb18 t p k)

theorem emb19 (t : Fin cfg0.N) (p : Fin 2048) (k : Fin 64) :
    ((cfg0.win 19).blk t).view.emb (ix2 p k : S2048x64.Idx) = (ix2 (row t p) k : S131072x64.Idx) := by
  funext a
  apply Fin.ext
  match a with
  | ⟨0, _⟩ => show win0_19.index t (0 : Fin 2) * 2048 + 1 * p.val = t.val * 2048 + p.val; rw [(idx19 t).1]; omega
  | ⟨1, _⟩ => show win0_19.index t (1 : Fin 2) * 64 + 1 * k.val = k.val; rw [(idx19 t).2]; omega

theorem blk19 (c : Dev nD) (t : Fin cfg0.N) (p : Fin 2048) (k : Fin 64) :
    (iblk m c 19 t : Vec Ideal S2048x64 .f32) (ix2 p k) = (V m c main_v139 : S131072x64.Idx → Elt Ideal .f32) (ix2 (row t p) k) := by
  unfold iblk
  rw [View.read_apply]
  exact congrArg (V m c main_v139 : S131072x64.Idx → Elt Ideal .f32) (emb19 t p k)

theorem emb20 (t : Fin cfg0.N) (p : Fin 2048) (k : Fin 64) :
    ((cfg0.win 20).blk t).view.emb (ix2 p k : S2048x64.Idx) = (ix2 (row t p) k : S131072x64.Idx) := by
  funext a
  apply Fin.ext
  match a with
  | ⟨0, _⟩ => show win0_20.index t (0 : Fin 2) * 2048 + 1 * p.val = t.val * 2048 + p.val; rw [(idx20 t).1]; omega
  | ⟨1, _⟩ => show win0_20.index t (1 : Fin 2) * 64 + 1 * k.val = k.val; rw [(idx20 t).2]; omega

theorem blk20 (c : Dev nD) (t : Fin cfg0.N) (p : Fin 2048) (k : Fin 64) :
    (iblk m c 20 t : Vec Ideal S2048x64 .f32) (ix2 p k) = (V m c main_v146 : S131072x64.Idx → Elt Ideal .f32) (ix2 (row t p) k) := by
  unfold iblk
  rw [View.read_apply]
  exact congrArg (V m c main_v146 : S131072x64.Idx → Elt Ideal .f32) (emb20 t p k)

theorem emb21 (t : Fin cfg0.N) (p : Fin 2048) (k : Fin 1) :
    ((cfg0.win 21).blk t).view.emb (ix2 p k : S2048x1.Idx) = (ix2 (row t p) k : S131072x1.Idx) := by
  funext a
  apply Fin.ext
  match a with
  | ⟨0, _⟩ => show win0_21.index t (0 : Fin 2) * 2048 + 1 * p.val = t.val * 2048 + p.val; rw [(idx21 t).1]; omega
  | ⟨1, _⟩ => show win0_21.index t (1 : Fin 2) * 1 + 1 * k.val = k.val; rw [(idx21 t).2]; omega

theorem blk21 (c : Dev nD) (t : Fin cfg0.N) (p : Fin 2048) (k : Fin 1) :
    (iblk m c 21 t : Vec Ideal S2048x1 .f32) (ix2 p k) = (V m c main_v147 : S131072x1.Idx → Elt Ideal .f32) (ix2 (row t p) k) := by
  unfold iblk
  rw [View.read_apply]
  exact congrArg (V m c main_v147 : S131072x1.Idx → Elt Ideal .f32) (emb21 t p k)

theorem emb22 (t : Fin cfg0.N) (p : Fin 2048) (k : Fin 1) :
    ((cfg0.win 22).blk t).view.emb (ix2 p k : S2048x1.Idx) = (ix2 (row t p) k : S131072x1.Idx) := by
  funext a
  apply Fin.ext
  match a with
  | ⟨0, _⟩ => show win0_22.index t (0 : Fin 2) * 2048 + 1 * p.val = t.val * 2048 + p.val; rw [(idx22 t).1]; omega
  | ⟨1, _⟩ => show win0_22.index t (1 : Fin 2) * 1 + 1 * k.val = k.val; rw [(idx22 t).2]; omega

theorem blk22 (c : Dev nD) (t : Fin cfg0.N) (p : Fin 2048) (k : Fin 1) :
    (iblk m c 22 t : Vec Ideal S2048x1 .f32) (ix2 p k) = (V m c main_v148 : S131072x1.Idx → Elt Ideal .f32) (ix2 (row t p) k) := by
  unfold iblk
  rw [View.read_apply]
  exact congrArg (V m c main_v148 : S131072x1.Idx → Elt Ideal .f32) (emb22 t p k)

theorem emb23 (t : Fin cfg0.N) (p : Fin 2048) (k : Fin 1) :
    ((cfg0.win 23).blk t).view.emb (ix2 p k : S2048x1.Idx) = (ix2 (row t p) k : S131072x1.Idx) := by
  funext a
  apply Fin.ext
  match a with
  | ⟨0, _⟩ => show win0_23.index t (0 : Fin 2) * 2048 + 1 * p.val = t.val * 2048 + p.val; rw [(idx23 t).1]; omega
  | ⟨1, _⟩ => show win0_23.index t (1 : Fin 2) * 1 + 1 * k.val = k.val; rw [(idx23 t).2]; omega

theorem blk23 (c : Dev nD) (t : Fin cfg0.N) (p : Fin 2048) (k : Fin 1) :
    (iblk m c 23 t : Vec Ideal S2048x1 .f32) (ix2 p k) = (V m c main_v149 : S131072x1.Idx → Elt Ideal .f32) (ix2 (row t p) k) := by
  unfold iblk
  rw [View.read_apply]
  exact congrArg (V m c main_v149 : S131072x1.Idx → Elt Ideal .f32) (emb23 t p k)

theorem emb24 (t : Fin cfg0.N) (p : Fin 2048) (k : Fin 1) :
    ((cfg0.win 24).blk t).view.emb (ix2 p k : S2048x1.Idx) = (ix2 (row t p) k : S131072x1.Idx) := by
  funext a
  apply Fin.ext
  match a with
  | ⟨0, _⟩ => show win0_24.index t (0 : Fin 2) * 2048 + 1 * p.val = t.val * 2048 + p.val; rw [(idx24 t).1]; omega
  | ⟨1, _⟩ => show win0_24.index t (1 : Fin 2) * 1 + 1 * k.val = k.val; rw [(idx24 t).2]; omega

end Cert.KernelIdeal.Whole

end
-- ==== Proof.KernelValue.lean ====
/-
  The kernel's output column as one function of its operand arrays.

  Row `p` of what point `t` stores is the score of row `2048·t + p` of the operand arrays, because row `p` of each
  operand's block at `t` is row `2048·t + p` of that operand's array. So what point `t` writes back is block `t` of
  the score column.
-/
import proofs.«127167_j18786186953558_2_alg».proof.Proof.KernelBlocks

set_option maxRecDepth 16384
set_option Elab.async false

noncomputable section

namespace Cert.KernelIdeal.Whole

open Cert.KernelIdeal Cert.KernelIdeal.Gen Idealize.ShloMosaic Idealize.ShloMosaic.ValueIdx Idealize.ShloMosaic.TcCoe
open Idealize.SL.Sem Idealize.ShloMosaic.Pipeline

variable (m : (ℓ : Loc nD τ sig) → Buf (Elt Ideal) ℓ) (ρ : Dev nD → PrngReg)

/-! ## The stored row over plain arrays -/

/-- Row `p` of what the body stores, over plain arrays: with row `p` of each loaded block equal to row `b` of an
    array `A_w`, it is the score of row `b` of the entities made of those arrays (subject: arrays 0 and 3 … 11; object:
    arrays 1 and 12 … 20; relation: array 2; dates: arrays 21, 22, 23). -/
theorem stored_row (x0 x1 : Vec Ideal S2048x128 .f32) (x2 : Vec Ideal S2048x192 .f32)
    (x3 x4 x5 x6 x7 x8 x9 x10 x11 x12 x13 x14 x15 x16 x17 x18 x19 x20 : Vec Ideal S2048x64 .f32)
    (x21 x22 x23 : Vec Ideal S2048x1 .f32)
    (A0 A1 : Cert.Score.Rows 128) (A2 : Cert.Score.Rows 192)
    (A3 A4 A5 A6 A7 A8 A9 A10 A11 A12 A13 A14 A15 A16 A17 A18 A19 A20 : Cert.Score.Rows 64)
    (A21 A22 A23 : Cert.Score.Rows 1) (p : Fin 2048) (b : Fin 131072)
    (h0 : ∀ k : Fin 128, x0 (ix2 p k) = A0 (ix2 b k))
    (h1 : ∀ k : Fin 128, x1 (ix2 p k) = A1 (ix2 b k))
    (h2 : ∀ k : Fin 192, x2 (ix2 p k) = A2 (ix2 b k))
    (h3 : ∀ k : Fin 64, x3 (ix2 p k) = A3 (ix2 b k))
    (h4 : ∀ k : Fin 64, x4 (ix2 p k) = A4 (ix2 b k))
    (h5 : ∀ k : Fin 64, x5 (ix2 p k) = A5 (ix2 b k))
    (h6 : ∀ k : Fin 64, x6 (ix2 p k) = A6 (ix2 b k))
    (h7 : ∀ k : Fin 64, x7 (ix2 p k) = A7 (ix2 b k))
    (h8 : ∀ k : Fin 64, x8 (ix2 p k) = A8 (ix2 b k))
    (h9 : ∀ k : Fin 64, x9 (ix2 p k) = A9 (ix2 b k))
    (h10 : ∀ k : Fin 64, x10 (ix2 p k) = A10 (ix2 b k))
    (h11 : ∀ k : Fin 64, x11 (ix2 p k) = A11 (ix2 b k))
    (h12 : ∀ k : Fin 64, x12 (ix2 p k) = A12 (ix2 b k))
    (h13 : ∀ k : Fin 64, x13 (ix2 p k) = A13 (ix2 b k))
    (h14 : ∀ k : Fin 64, x14 (ix2 p k) = A14 (ix2 b k))
    (h15 : ∀ k : Fin 64, x15 (ix2 p k) = A15 (ix2 b k))
    (h16 : ∀ k : Fin 64, x16 (ix2 p k) = A16 (ix2 b k))
    (h17 : ∀ k : Fin 64, x17 (ix2 p k) = A17 (ix2 b k))
    (h18 : ∀ k : Fin 64, x18 (ix2 p k) = A18 (ix2 b k))
    (h19 : ∀ k : Fin 64, x19 (ix2 p k) = A19 (ix2 b k))
    (h20 : ∀ k : Fin 64, x20 (ix2 p k) = A20 (ix2 b k))
    (h21 : x21 (ix2 p 0) = A21 (ix2 b 0))
    (h22 : x22 (ix2 p 0) = A22 (ix2 b 0))
    (h23 : x23 (ix2 p 0) = A23 (ix2 b 0)) :
    out0_24 (F := Ideal) x0 x1 x2 x3 x4 x5 x6 x7 x8 x9 x10 x11 x12 x13 x14 x15 x16 x17 x18 x19 x20 x21 x22 x23 (ix2 p 0)
      = Cert.Score.score ⟨A0, A3, A4, A5, A6, A7, A8, A9, A10, A11⟩ ⟨A1, A12, A13, A14, A15, A16, A17, A18, A19, A20⟩
          A2 A21 A22 A23 b :=
  Body.body_row x0 x1 x2 x3 x4 x5 x6 x7 x8 x9 x10 x11 x12 x13 x14 x15 x16 x17 x18 x19 x20 x21 x22 x23
    ⟨A0, A3, A4, A5, A6, A7, A8, A9, A10, A11⟩ ⟨A1, A12, A13, A14, A15, A16, A17, A18, A19, A20⟩ A2 A21 A22 A23 p b
    h0 h1 h2 h3 h4 h5 h6 h7 h8 h9 h10 h11 h12 h13 h14 h15 h16 h17 h18 h19 h20 h21 h22 h23

/-! ## The output column -/

/-- The subject's looked-up rows, as the region finds them. -/
def subj (c : Dev nD) : Cert.Score.Entity where
  e := (V m c main_v6 : S131072x128.Idx → Elt Ideal .f32)
  yf := (V m c main_v27 : S131072x64.Idx → Elt Ideal .f32)
  mf := (V m c main_v34 : S131072x64.Idx → Elt Ideal .f32)
  df := (V m c main_v41 : S131072x64.Idx → Elt Ideal .f32)
  yp := (V m c main_v48 : S131072x64.Idx → Elt Ideal .f32)
  mp := (V m c main_v55 : S131072x64.Idx → Elt Ideal .f32)
  dp := (V m c main_v62 : S131072x64.Idx → Elt Ideal .f32)
  ya := (V m c main_v69 : S131072x64.Idx → Elt Ideal .f32)
  ma := (V m c main_v76 : S131072x64.Idx → Elt Ideal .f32)
  da := (V m c main_v83 : S131072x64.Idx → Elt Ideal .f32)

/-- The object's looked-up rows, as the region finds them. -/
def obj (c : Dev nD) : Cert.Score.Entity where
  e := (V m c main_v13 : S131072x128.Idx → Elt Ideal .f32)
  yf := (V m c main_v90 : S131072x64.Idx → Elt Ideal .f32)
  mf := (V m c main_v97 : S131072x64.Idx → Elt Ideal .f32)
  df := (V m c main_v104 : S131072x64.Idx → Elt Ideal .f32)
  yp := (V m c main_v111 : S131072x64.Idx → Elt Ideal .f32)
  mp := (V m c main_v118 : S131072x64.Idx → Elt Ideal .f32)
  dp := (V m c main_v125 : S131072x64.Idx → Elt Ideal .f32)
  ya := (V m c main_v132 : S131072x64.Idx → Elt Ideal .f32)
  ma := (V m c main_v139 : S131072x64.Idx → Elt Ideal .f32)
  da := (V m c main_v146 : S131072x64.Idx → Elt Ideal .f32)

/-- The score of every row, as a column: entry `(r, 0)` is the score of row `r` of the operand arrays. -/
def column (c : Dev nD) : S131072x1.Idx → Elt Ideal .f32 := fun i =>
  Cert.Score.score (subj m c) (obj m c) (V m c main_v20 : S131072x192.Idx → Elt Ideal .f32)
    (V m c main_v147 : S131072x1.Idx → Elt Ideal .f32) (V m c main_v148 : S131072x1.Idx → Elt Ideal .f32)
    (V m c main_v149 : S131072x1.Idx → Elt Ideal .f32) ⟨(i 0).val, idx2_lt0 i⟩

/-- WHAT POINT `t` WRITES BACK is block `t` of the score column: row `p` of the stored block is the score of row
    `2048·t + p`, every operand's block row `p` being that row of its array. -/
theorem flushed_eq (c : Dev nD) (t : Fin cfg0.N) :
    (dats m 0 c).flushed 24 t = ((cfg0.win 24).blk t).view.read (Elt Ideal) (column m c) := by
  show (cfg0.win 24).cut (grid0.coords t) ((dats m 0 c).after 24 t) = _
  rw [after0_24]
  funext y
  obtain ⟨p, q, rfl⟩ : ∃ (p : Fin 2048) (q : Fin 1), y = ix2 p q := ⟨y 0, y 1, eq_ix2 y⟩
  obtain rfl : q = 0 := Subsingleton.elim _ _
  rw [View.read_apply]
  show out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 p 0)
      = column m c (((cfg0.win 24).blk t).view.emb (ix2 p 0 : S2048x1.Idx))
  rw [emb24 t p 0]
  unfold column subj obj
  exact stored_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    (V m c main_v6 : S131072x128.Idx → Elt Ideal .f32)
    (V m c main_v13 : S131072x128.Idx → Elt Ideal .f32)
    (V m c main_v20 : S131072x192.Idx → Elt Ideal .f32)
    (V m c main_v27 : S131072x64.Idx → Elt Ideal .f32)
    (V m c main_v34 : S131072x64.Idx → Elt Ideal .f32)
    (V m c main_v41 : S131072x64.Idx → Elt Ideal .f32)
    (V m c main_v48 : S131072x64.Idx → Elt Ideal .f32)
    (V m c main_v55 : S131072x64.Idx → Elt Ideal .f32)
    (V m c main_v62 : S131072x64.Idx → Elt Ideal .f32)
    (V m c main_v69 : S131072x64.Idx → Elt Ideal .f32)
    (V m c main_v76 : S131072x64.Idx → Elt Ideal .f32)
    (V m c main_v83 : S131072x64.Idx → Elt Ideal .f32)
    (V m c main_v90 : S131072x64.Idx → Elt Ideal .f32)
    (V m c main_v97 : S131072x64.Idx → Elt Ideal .f32)
    (V m c main_v104 : S131072x64.Idx → Elt Ideal .f32)
    (V m c main_v111 : S131072x64.Idx → Elt Ideal .f32)
    (V m c main_v118 : S131072x64.Idx → Elt Ideal .f32)
    (V m c main_v125 : S131072x64.Idx → Elt Ideal .f32)
    (V m c main_v132 : S131072x64.Idx → Elt Ideal .f32)
    (V m c main_v139 : S131072x64.Idx → Elt Ideal .f32)
    (V m c main_v146 : S131072x64.Idx → Elt Ideal .f32)
    (V m c main_v147 : S131072x1.Idx → Elt Ideal .f32)
    (V m c main_v148 : S131072x1.Idx → Elt Ideal .f32)
    (V m c main_v149 : S131072x1.Idx → Elt Ideal .f32)
    p (row t p)
    (fun k => blk0 m c t p k)
    (fun k => blk1 m c t p k)
    (fun k => blk2 m c t p k)
    (fun k => blk3 m c t p k)
    (fun k => blk4 m c t p k)
    (fun k => blk5 m c t p k)
    (fun k => blk6 m c t p k)
    (fun k => blk7 m c t p k)
    (fun k => blk8 m c t p k)
    (fun k => blk9 m c t p k)
    (fun k => blk10 m c t p k)
    (fun k => blk11 m c t p k)
    (fun k => blk12 m c t p k)
    (fun k => blk13 m c t p k)
    (fun k => blk14 m c t p k)
    (fun k => blk15 m c t p k)
    (fun k => blk16 m c t p k)
    (fun k => blk17 m c t p k)
    (fun k => blk18 m c t p k)
    (fun k => blk19 m c t p k)
    (fun k => blk20 m c t p k)
    (blk21 m c t p 0)
    (blk22 m c t p 0)
    (blk23 m c t p 0)

end Cert.KernelIdeal.Whole

end
-- ==== Proof.KernelTail.lean ====
import proofs.«127167_j18786186953558_2_alg».proof.Proof.Gen.KernelIdeal.Frame
import Idealize.ShloMosaic.Lib.Pipeline.Value
import Idealize.ShloMosaic.Lib.Pipeline.FrameSuffix
import Idealize.ShloMosaic.Lib.StableHlo.Run

/-!
# The output array: its 64 blocks tile it, and the final reshape reads it

The region's one output is a column of 131072 rows and 1 column. Grid point `t` (of 64) writes back the block of
rows `2048 * t … 2048 * t + 2047`; together the 64 blocks cover every index of the column (`cover24`). After the
region the program reshapes the column to a vector of 131072 elements: the result buffer holds the column's
elements in row-major order (`tail_read`).
-/

set_option maxRecDepth 16384

noncomputable section

namespace Cert.KernelIdeal.Tail

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-! ## The cover -/

/-- An index of the output column lies in point `t`'s block iff on each axis its coordinate lies in the block's
    range: from the block's index times the block's extent, for the block's extent. -/
theorem mem_blk24 (t : Fin cfg0.N) (i : S131072x1.Idx) :
    i ∈ ((cfg0.win 24).blk t).view.set ↔ ∀ a : Fin 2, win0_24.index t a * S2048x1.size a ≤ (i a).val ∧ (i a).val < win0_24.index t a * S2048x1.size a + S2048x1.size a := by
  show i ∈ ((View.whole main_v150).slice (win0_24.rect t)).set ↔ _
  rw [View.set_slice_whole, Rect.mem_set_unit]
  exact Iff.rfl

/-- The block index of the output window at grid point `t` is `(t, 0)`. -/
theorem idx24 : ∀ t : Fin cfg0.N, win0_24.index t (0 : Fin 2) = t.val ∧ win0_24.index t (1 : Fin 2) = 0 :=
  (by decide +kernel : ∀ t : Fin grid0.N, win0_24.index t (0 : Fin 2) = t.val ∧ win0_24.index t (1 : Fin 2) = 0)

/-- THE COVER: every index `i` of the output column is in the block some point writes back — the point
    `(i 0) / 2048`, whose block holds rows `2048 * ((i 0) / 2048)` up to 2047 further and the one column. -/
theorem cover24 (i : S131072x1.Idx) : ∃ t : Fin cfg0.N, (cfg0.win 24).flush t = true ∧ i ∈ ((cfg0.win 24).blk t).view.set := by
  have hN : cfg0.N = 64 := N_0
  have hi0 : (i 0).val < 131072 := (i 0).isLt
  have hi1 : (i 1).val < 1 := (i 1).isLt
  obtain ⟨t, ht⟩ : ∃ t : Fin cfg0.N, t.val = (i 0).val / 2048 := ⟨⟨(i 0).val / 2048, by rw [hN]; omega⟩, rfl⟩
  refine ⟨t, flush0_24 t, ?_⟩
  rw [mem_blk24]
  obtain ⟨e0, e1⟩ := idx24 t
  intro a
  match a with
  | ⟨0, _⟩ => show win0_24.index t (0 : Fin 2) * 2048 ≤ (i 0).val ∧ (i 0).val < win0_24.index t (0 : Fin 2) * 2048 + 2048; omega
  | ⟨1, _⟩ => show win0_24.index t (1 : Fin 2) * 1 ≤ (i 1).val ∧ (i 1).val < win0_24.index t (1 : Fin 2) * 1 + 1; omega

/-! ## The reshape after the region -/

/-- THE TAIL: when the region leaves the output column holding `G`, the one operation after the region — the reshape
    of the column to a vector — leaves its result buffer holding `G`'s elements in row-major order at the vector's
    shape. (The operation reads the output array, which the region left at its final contents, and writes only its own
    result buffer.) -/
theorem tail_read (c : Dev nD) (G : S131072x1.Idx → Elt F .f32) (hG : (dats m 0 c).arrAt 24 cfg0.N = G) :
    Pipeline.afterTail₀ cfgs (dats m) 0 (V0 m) [hostOps1] c main_v151 = shapeCast S131072 G shapeCasts_S131072x1_S131072 := by
  unfold Pipeline.afterTail₀
  show StableHlo.after hostOps1 _ (Proc.devRef .tc main_v151) = _
  after_results
  have e : Pipeline.withArrays (cfgs 0).spec c (V0 m c) (fun w => (dats m 0 c).arrAt w (cfgs 0).N) (Proc.devRef .tc main_v150) = G :=
    (Pipeline.withArrays_arr spec0 launch0.win.arr_inj c _ _ 24).trans hG
  rw [e]
  rfl

end Cert.KernelIdeal.Tail
-- ==== Proof.KernelRun.lean ====
/-
  The kernel's run, read: its result vector holds the score of every row.

  The 64 write-backs tile the output column, so after the region it is the score column; the program's last
  operation reads that column `[131072, 1]` as the vector `[131072]`, entry `r` being the column's `(r, 0)`
  (same row-major position). The arguments are neither staged for writing nor written by any host operation, so they
  end as launched.
-/
import proofs.«127167_j18786186953558_2_alg».proof.Proof.KernelValue
import proofs.«127167_j18786186953558_2_alg».proof.Proof.KernelTail

set_option maxRecDepth 16384

noncomputable section

namespace Cert.KernelIdeal.Whole

open Cert.KernelIdeal Cert.KernelIdeal.Gen Idealize.ShloMosaic Idealize.ShloMosaic.ValueIdx Idealize.ShloMosaic.TcCoe
open Idealize.SL.Sem Idealize.ShloMosaic.Pipeline

variable (m : (ℓ : Loc nD τ sig) → Buf (Elt Ideal) ℓ) (ρ : Dev nD → PrngReg)

/-- THE OUTPUT COLUMN after the region: every row is in the block of point `row / 2048`, and each point wrote its
    block of the score column. -/
theorem final (c : Dev nD) : (dats m 0 c).arrAt 24 cfg0.N = column m c :=
  (dats m 0 c).arrAt_eq_of_cover 24 (column m c) (fun t _ => flushed_eq m c t) (fun i => Cert.KernelIdeal.Tail.cover24 i)

/-- The result vector: entry `r` is the score of row `r` of the operand arrays. -/
def result (c : Dev nD) : S131072.Idx → Elt Ideal .f32 := fun j =>
  Cert.Score.score (subj m c) (obj m c) (V m c main_v20 : S131072x192.Idx → Elt Ideal .f32)
    (V m c main_v147 : S131072x1.Idx → Elt Ideal .f32) (V m c main_v148 : S131072x1.Idx → Elt Ideal .f32)
    (V m c main_v149 : S131072x1.Idx → Elt Ideal .f32) (j 0)

/-- The column read as a vector: entry `r` is the column's `(r, 0)`. -/
theorem vec_eq (c : Dev nD) : shapeCast S131072 (column m c) shapeCasts_S131072x1_S131072 = result m c := by
  funext j
  refine (shapeCast_apply (column m c) shapeCasts_S131072x1_S131072 j (ix2 (j 0) 0) ?_).trans ?_
  · rw [Shape.rowMajor_val_two, Shape.rowMajor_val_one]
    show (j 0).val * 1 + 0 = (j 0).val
    omega
  · rfl

/-- THE RUN: every weakly fair execution terminates with the result vector at the score of every row and the
    arguments unchanged. -/
theorem run_score : θ_run defs (onTc (τ := τ) (main (F := Ideal))) ⟨m, fun _ => 0, ρ⟩ (fun r => ∀ c : Dev nD,
      r.2.mem ((c.tc : Thread nD τ).loc main_v151) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(((h c).2 main_v151 (Pipeline.mem_restRefs_of main_v151 (by decide) (by decide))).trans
        ((Cert.KernelIdeal.Tail.tail_read m c (column m c) (final m c)).trans (vec_eq m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c))⟩) (run_main m ρ)

end Cert.KernelIdeal.Whole

end
-- ==== Proof.KernelRows.lean ====
import proofs.«127167_j18786186953558_2_alg».proof.Proof.Gen.KernelIdeal.Frame
import Idealize.ShloMosaic.Lib.StableHlo.Run

/-!
# The operand arrays of the kernel's one region, as rows looked up in the program's tables

Before its region the program performs 21 row look-ups `table[idx]` and three reshapes. Each look-up first
normalises the index vector — an index below zero is counted from the end of the table, i.e. the table's height
is added to it —, lays the result out as a column and gathers the table's rows at that column. The theorems below
state what each operand array holds when the region is entered, as that composition applied to the program's
arguments.
-/

set_option maxRecDepth 16384

noncomputable section

namespace Cert.KernelIdeal.Rows

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD)

/-- The normalised index column for a table of height `n`: where `idx` is negative (signed comparison with the
    constant 0 broadcast along the vector) the entry is `idx + n` (`n` broadcast likewise), elsewhere `idx`
    itself; the vector is then laid out as a column of shape [131072, 1]. -/
def col (n : BitVec 32) (idx : (⟨S131072, .i32⟩ : BufTy).Contents (Elt F)) : (⟨S131072x1, .i32⟩ : BufTy).Contents (Elt F) :=
  broadcastInDim S131072x1 ![0] bcast_S131072_S131072x1_0
    (select (cmpi .slt idx (broadcastInDim S131072 ![] bcast_S_S131072 (constantI S_ 32 0#32)))
      (addi idx (broadcastInDim S131072 ![] bcast_S_S131072 (constantI S_ 32 n))) idx)

/-! ## The 21 gathered operands -/

set_option maxHeartbeats 4000000 in
/-- `main_v6` holds the rows of the table argument 6 (height 100000) looked up at the index vector
    argument 0, negative indices counted from the end. -/
theorem V_main_v6 : V m c main_v6 = Host.gather gather_S100000x128_S131072x1_S131072x128_1_0_n_n_0_1_1128 (m ((c : Thread nD τ).loc main_arg6)) (col 100000#32 (m ((c : Thread nD τ).loc main_arg0))) := by
  show StableHlo.after hostOps0 (fun b => m (c, b)) (Proc.devRef .tc main_v6) = _
  after_results_simp
  rfl

set_option maxHeartbeats 4000000 in
/-- `main_v13` holds the rows of the table argument 6 (height 100000) looked up at the index vector
    argument 2, negative indices counted from the end. -/
theorem V_main_v13 : V m c main_v13 = Host.gather gather_S100000x128_S131072x1_S131072x128_1_0_n_n_0_1_1128 (m ((c : Thread nD τ).loc main_arg6)) (col 100000#32 (m ((c : Thread nD τ).loc main_arg2))) := by
  show StableHlo.after hostOps0 (fun b => m (c, b)) (Proc.devRef .tc main_v13) = _
  after_results_simp
  rfl

set_option maxHeartbeats 4000000 in
/-- `main_v20` holds the rows of the table argument 7 (height 500) looked up at the index vector
    argument 1, negative indices counted from the end. -/
theorem V_main_v20 : V m c main_v20 = Host.gather gather_S500x192_S131072x1_S131072x192_1_0_n_n_0_1_1192 (m ((c : Thread nD τ).loc main_arg7)) (col 500#32 (m ((c : Thread nD τ).loc main_arg1))) := by
  show StableHlo.after hostOps0 (fun b => m (c, b)) (Proc.devRef .tc main_v20) = _
  after_results_simp
  rfl

set_option maxHeartbeats 4000000 in
/-- `main_v27` holds the rows of the table argument 8 (height 100000) looked up at the index vector
    argument 0, negative indices counted from the end. -/
theorem V_main_v27 : V m c main_v27 = Host.gather gather_S100000x64_S131072x1_S131072x64_1_0_n_n_0_1_164 (m ((c : Thread nD τ).loc main_arg8)) (col 100000#32 (m ((c : Thread nD τ).loc main_arg0))) := by
  show StableHlo.after hostOps0 (fun b => m (c, b)) (Proc.devRef .tc main_v27) = _
  after_results_simp
  rfl

set_option maxHeartbeats 4000000 in
/-- `main_v34` holds the rows of the table argument 9 (height 100000) looked up at the index vector
    argument 0, negative indices counted from the end. -/
theorem V_main_v34 : V m c main_v34 = Host.gather gather_S100000x64_S131072x1_S131072x64_1_0_n_n_0_1_164 (m ((c : Thread nD τ).loc main_arg9)) (col 100000#32 (m ((c : Thread nD τ).loc main_arg0))) := by
  show StableHlo.after hostOps0 (fun b => m (c, b)) (Proc.devRef .tc main_v34) = _
  after_results_simp
  rfl

set_option maxHeartbeats 4000000 in
/-- `main_v41` holds the rows of the table argument 10 (height 100000) looked up at the index vector
    argument 0, negative indices counted from the end. -/
theorem V_main_v41 : V m c main_v41 = Host.gather gather_S100000x64_S131072x1_S131072x64_1_0_n_n_0_1_164 (m ((c : Thread nD τ).loc main_arg10)) (col 100000#32 (m ((c : Thread nD τ).loc main_arg0))) := by
  show StableHlo.after hostOps0 (fun b => m (c, b)) (Proc.devRef .tc main_v41) = _
  after_results_simp
  rfl

set_option maxHeartbeats 4000000 in
/-- `main_v48` holds the rows of the table argument 11 (height 100000) looked up at the index vector
    argument 0, negative indices counted from the end. -/
theorem V_main_v48 : V m c main_v48 = Host.gather gather_S100000x64_S131072x1_S131072x64_1_0_n_n_0_1_164 (m ((c : Thread nD τ).loc main_arg11)) (col 100000#32 (m ((c : Thread nD τ).loc main_arg0))) := by
  show StableHlo.after hostOps0 (fun b => m (c, b)) (Proc.devRef .tc main_v48) = _
  after_results_simp
  rfl

set_option maxHeartbeats 4000000 in
/-- `main_v55` holds the rows of the table argument 12 (height 100000) looked up at the index vector
    argument 0, negative indices counted from the end. -/
theorem V_main_v55 : V m c main_v55 = Host.gather gather_S100000x64_S131072x1_S131072x64_1_0_n_n_0_1_164 (m ((c : Thread nD τ).loc main_arg12)) (col 100000#32 (m ((c : Thread nD τ).loc main_arg0))) := by
  show StableHlo.after hostOps0 (fun b => m (c, b)) (Proc.devRef .tc main_v55) = _
  after_results_simp
  rfl

set_option maxHeartbeats 4000000 in
/-- `main_v62` holds the rows of the table argument 13 (height 100000) looked up at the index vector
    argument 0, negative indices counted from the end. -/
theorem V_main_v62 : V m c main_v62 = Host.gather gather_S100000x64_S131072x1_S131072x64_1_0_n_n_0_1_164 (m ((c : Thread nD τ).loc main_arg13)) (col 100000#32 (m ((c : Thread nD τ).loc main_arg0))) := by
  show StableHlo.after hostOps0 (fun b => m (c, b)) (Proc.devRef .tc main_v62) = _
  after_results_simp
  rfl

set_option maxHeartbeats 4000000 in
/-- `main_v69` holds the rows of the table argument 14 (height 100000) looked up at the index vector
    argument 0, negative indices counted from the end. -/
theorem V_main_v69 : V m c main_v69 = Host.gather gather_S100000x64_S131072x1_S131072x64_1_0_n_n_0_1_164 (m ((c : Thread nD τ).loc main_arg14)) (col 100000#32 (m ((c : Thread nD τ).loc main_arg0))) := by
  show StableHlo.after hostOps0 (fun b => m (c, b)) (Proc.devRef .tc main_v69) = _
  after_results_simp
  rfl

set_option maxHeartbeats 4000000 in
/-- `main_v76` holds the rows of the table argument 15 (height 100000) looked up at the index vector
    argument 0, negative indices counted from the end. -/
theorem V_main_v76 : V m c main_v76 = Host.gather gather_S100000x64_S131072x1_S131072x64_1_0_n_n_0_1_164 (m ((c : Thread nD τ).loc main_arg15)) (col 100000#32 (m ((c : Thread nD τ).loc main_arg0))) := by
  show StableHlo.after hostOps0 (fun b => m (c, b)) (Proc.devRef .tc main_v76) = _
  after_results_simp
  rfl

set_option maxHeartbeats 4000000 in
/-- `main_v83` holds the rows of the table argument 16 (height 100000) looked up at the index vector
    argument 0, negative indices counted from the end. -/
theorem V_main_v83 : V m c main_v83 = Host.gather gather_S100000x64_S131072x1_S131072x64_1_0_n_n_0_1_164 (m ((c : Thread nD τ).loc main_arg16)) (col 100000#32 (m ((c : Thread nD τ).loc main_arg0))) := by
  show StableHlo.after hostOps0 (fun b => m (c, b)) (Proc.devRef .tc main_v83) = _
  after_results_simp
  rfl

set_option maxHeartbeats 4000000 in
/-- `main_v90` holds the rows of the table argument 8 (height 100000) looked up at the index vector
    argument 2, negative indices counted from the end. -/
theorem V_main_v90 : V m c main_v90 = Host.gather gather_S100000x64_S131072x1_S131072x64_1_0_n_n_0_1_164 (m ((c : Thread nD τ).loc main_arg8)) (col 100000#32 (m ((c : Thread nD τ).loc main_arg2))) := by
  show StableHlo.after hostOps0 (fun b => m (c, b)) (Proc.devRef .tc main_v90) = _
  after_results_simp
  rfl

set_option maxHeartbeats 4000000 in
/-- `main_v97` holds the rows of the table argument 9 (height 100000) looked up at the index vector
    argument 2, negative indices counted from the end. -/
theorem V_main_v97 : V m c main_v97 = Host.gather gather_S100000x64_S131072x1_S131072x64_1_0_n_n_0_1_164 (m ((c : Thread nD τ).loc main_arg9)) (col 100000#32 (m ((c : Thread nD τ).loc main_arg2))) := by
  show StableHlo.after hostOps0 (fun b => m (c, b)) (Proc.devRef .tc main_v97) = _
  after_results_simp
  rfl

set_option maxHeartbeats 4000000 in
/-- `main_v104` holds the rows of the table argument 10 (height 100000) looked up at the index vector
    argument 2, negative indices counted from the end. -/
theorem V_main_v104 : V m c main_v104 = Host.gather gather_S100000x64_S131072x1_S131072x64_1_0_n_n_0_1_164 (m ((c : Thread nD τ).loc main_arg10)) (col 100000#32 (m ((c : Thread nD τ).loc main_arg2))) := by
  show StableHlo.after hostOps0 (fun b => m (c, b)) (Proc.devRef .tc main_v104) = _
  after_results_simp
  rfl

set_option maxHeartbeats 4000000 in
/-- `main_v111` holds the rows of the table argument 11 (height 100000) looked up at the index vector
    argument 2, negative indices counted from the end. -/
theorem V_main_v111 : V m c main_v111 = Host.gather gather_S100000x64_S131072x1_S131072x64_1_0_n_n_0_1_164 (m ((c : Thread nD τ).loc main_arg11)) (col 100000#32 (m ((c : Thread nD τ).loc main_arg2))) := by
  show StableHlo.after hostOps0 (fun b => m (c, b)) (Proc.devRef .tc main_v111) = _
  after_results_simp
  rfl

set_option maxHeartbeats 4000000 in
/-- `main_v118` holds the rows of the table argument 12 (height 100000) looked up at the index vector
    argument 2, negative indices counted from the end. -/
theorem V_main_v118 : V m c main_v118 = Host.gather gather_S100000x64_S131072x1_S131072x64_1_0_n_n_0_1_164 (m ((c : Thread nD τ).loc main_arg12)) (col 100000#32 (m ((c : Thread nD τ).loc main_arg2))) := by
  show StableHlo.after hostOps0 (fun b => m (c, b)) (Proc.devRef .tc main_v118) = _
  after_results_simp
  rfl

set_option maxHeartbeats 4000000 in
/-- `main_v125` holds the rows of the table argument 13 (height 100000) looked up at the index vector
    argument 2, negative indices counted from the end. -/
theorem V_main_v125 : V m c main_v125 = Host.gather gather_S100000x64_S131072x1_S131072x64_1_0_n_n_0_1_164 (m ((c : Thread nD τ).loc main_arg13)) (col 100000#32 (m ((c : Thread nD τ).loc main_arg2))) := by
  show StableHlo.after hostOps0 (fun b => m (c, b)) (Proc.devRef .tc main_v125) = _
  after_results_simp
  rfl

set_option maxHeartbeats 4000000 in
/-- `main_v132` holds the rows of the table argument 14 (height 100000) looked up at the index vector
    argument 2, negative indices counted from the end. -/
theorem V_main_v132 : V m c main_v132 = Host.gather gather_S100000x64_S131072x1_S131072x64_1_0_n_n_0_1_164 (m ((c : Thread nD τ).loc main_arg14)) (col 100000#32 (m ((c : Thread nD τ).loc main_arg2))) := by
  show StableHlo.after hostOps0 (fun b => m (c, b)) (Proc.devRef .tc main_v132) = _
  after_results_simp
  rfl

set_option maxHeartbeats 4000000 in
/-- `main_v139` holds the rows of the table argument 15 (height 100000) looked up at the index vector
    argument 2, negative indices counted from the end. -/
theorem V_main_v139 : V m c main_v139 = Host.gather gather_S100000x64_S131072x1_S131072x64_1_0_n_n_0_1_164 (m ((c : Thread nD τ).loc main_arg15)) (col 100000#32 (m ((c : Thread nD τ).loc main_arg2))) := by
  show StableHlo.after hostOps0 (fun b => m (c, b)) (Proc.devRef .tc main_v139) = _
  after_results_simp
  rfl

set_option maxHeartbeats 4000000 in
/-- `main_v146` holds the rows of the table argument 16 (height 100000) looked up at the index vector
    argument 2, negative indices counted from the end. -/
theorem V_main_v146 : V m c main_v146 = Host.gather gather_S100000x64_S131072x1_S131072x64_1_0_n_n_0_1_164 (m ((c : Thread nD τ).loc main_arg16)) (col 100000#32 (m ((c : Thread nD τ).loc main_arg2))) := by
  show StableHlo.after hostOps0 (fun b => m (c, b)) (Proc.devRef .tc main_v146) = _
  after_results_simp
  rfl

/-! ## The three reshaped operands -/

set_option maxHeartbeats 4000000 in
/-- `main_v147` holds argument 3's 131072 elements, in order, as a column of shape [131072, 1]. -/
theorem V_main_v147 : V m c main_v147 = shapeCast S131072x1 (m ((c : Thread nD τ).loc main_arg3)) shapeCasts_S131072_S131072x1 := by
  show StableHlo.after hostOps0 (fun b => m (c, b)) (Proc.devRef .tc main_v147) = _
  after_results_simp
  rfl

set_option maxHeartbeats 4000000 in
/-- `main_v148` holds argument 4's 131072 elements, in order, as a column of shape [131072, 1]. -/
theorem V_main_v148 : V m c main_v148 = shapeCast S131072x1 (m ((c : Thread nD τ).loc main_arg4)) shapeCasts_S131072_S131072x1 := by
  show StableHlo.after hostOps0 (fun b => m (c, b)) (Proc.devRef .tc main_v148) = _
  after_results_simp
  rfl

set_option maxHeartbeats 4000000 in
/-- `main_v149` holds argument 5's 131072 elements, in order, as a column of shape [131072, 1]. -/
theorem V_main_v149 : V m c main_v149 = shapeCast S131072x1 (m ((c : Thread nD τ).loc main_arg5)) shapeCasts_S131072_S131072x1 := by
  show StableHlo.after hostOps0 (fun b => m (c, b)) (Proc.devRef .tc main_v149) = _
  after_results_simp
  rfl

end Cert.KernelIdeal.Rows
-- ==== Proof.RefScore.lean ====
/-
  The reference's result is the score.

  The reference looks up, for the subject (indices in argument 0) and the object (indices in argument 2), one row of
  each of ten entity tables — the 128 static coordinates (argument 6) and, for year, month and day, the frequencies
  (arguments 8, 9, 10), phases (11, 12, 13) and amplitudes (14, 15, 16) of the 64 time-dependent coordinates — and for
  the relation (indices in argument 1) one row of the 192-wide relation table (argument 7); a negative index is first
  wrapped by the table's height. From the row's date (arguments 3, 4, 5, as columns) it forms each entity's 64
  time-dependent coordinates  ya·sin(yf·y + yp) + ma·sin(mf·m + mp) + da·sin(df·d + dp),  appends them to the static
  ones, multiplies subject, relation and object column by column and sums the 192 columns from a zero initial value.

  Read index by index: a sum along axis 1 from the initial value 0 is  0 + Σ_{k<192};  products and sums of arrays are
  pointwise; the host's sine is the ideal sine at each element; a [131072,1] column broadcast along 64 columns reads
  the column at the row; a two-piece concatenation along axis 1 reads the first piece below column 128 and the second
  at `k - 128` from it on. So row `b` of the result is the one-sum score `scoreWide` of the looked-up rows, which is
  the two-part score (`Cert.Score.scoreWide_eq_score`). The lookups themselves are never opened: they enter only as
  the arrays `subj`, `obj`, `rel`.
-/
import proofs.«127167_j18786186953558_2_alg».proof.Proof.Gen.ReferenceIdeal.Run
import proofs.«127167_j18786186953558_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefScore

open Cert.ReferenceIdeal Cert.ReferenceIdeal.Gen Idealize.ShloMosaic Idealize.ShloMosaic.TcCoe Idealize.SL.Sem
open Idealize.ShloMosaic.StableHlo Idealize.ShloMosaic.ValueIdx
open Cert.Score

/-- A date column broadcast along the 64 columns reads the column at row `b`. -/
theorem bcol_apply (t : Rows 1) (b : Fin 131072) (k : Fin 64) :
    broadcastInDim S131072x64 ![0, 1] bcast_S131072x1_S131072x64_0_1 t (ix2 b k) = t (ix2 b 0) := by
  refine broadcastInDim_apply _ _ t (ix2 b k) (ix2 b 0) (fun a => ?_)
  match a with
  | ⟨0, _⟩ => rfl
  | ⟨1, _⟩ => rfl

/-- The array of an entity's time-dependent coordinates, as the reference builds it. -/
def diaArr (E : Entity) (y m d : Rows 1) : Rows 64 :=
  addf (F := Ideal) (φ := .f32) (addf (F := Ideal) (φ := .f32)
      (mulf (F := Ideal) (φ := .f32) E.ya (Host.sin (F := Ideal) (φ := .f32) (addf (F := Ideal) (φ := .f32) (mulf (F := Ideal) (φ := .f32) E.yf (broadcastInDim S131072x64 ![0, 1] bcast_S131072x1_S131072x64_0_1 y)) E.yp)))
      (mulf (F := Ideal) (φ := .f32) E.ma (Host.sin (F := Ideal) (φ := .f32) (addf (F := Ideal) (φ := .f32) (mulf (F := Ideal) (φ := .f32) E.mf (broadcastInDim S131072x64 ![0, 1] bcast_S131072x1_S131072x64_0_1 m)) E.mp))))
    (mulf (F := Ideal) (φ := .f32) E.da (Host.sin (F := Ideal) (φ := .f32) (addf (F := Ideal) (φ := .f32) (mulf (F := Ideal) (φ := .f32) E.df (broadcastInDim S131072x64 ![0, 1] bcast_S131072x1_S131072x64_0_1 d)) E.dp)))

theorem diaArr_apply (E : Entity) (y m d : Rows 1) (b : Fin 131072) (k : Fin 64) :
    diaArr E y m d (ix2 b k) = E.dia y m d b k := by
  unfold diaArr Entity.dia wave
  simp only [addf_apply, mulf_apply, Host.sin, Ideal.hostUnary_sin_def]
  rw [bcol_apply y b k, bcol_apply m b k, bcol_apply d b k]

/-- A two-piece row of 128 + 64 columns read at column `k`: the first piece below column 128, the second, at
    `k - 128`, from it on. -/
theorem concat_apply (e : Rows 128) (t : Rows 64) (b : Fin 131072) (k : Fin 192) :
    concatenate S131072x192 1 [⟨S131072x128, e⟩, ⟨S131072x64, t⟩] concatenates_S131072x128_S131072x64_S131072x192_d1 (ix2 b k)
      = if h : k.val < 128 then e (ix2 b ⟨k.val, h⟩) else t (ix2 b ⟨k.val - 128, by omega⟩) := by
  by_cases h : k.val < 128
  · rw [dif_pos h]
    refine concatenate_pair_apply_left (1 : Fin S131072x192.rank) e t _ (ix2 b k) rfl (ix2 b ⟨k.val, h⟩) (fun a => ?_)
    match a with
    | ⟨0, _⟩ => rfl
    | ⟨1, _⟩ => rfl
  · rw [dif_neg h]
    refine concatenate_pair_apply_right (1 : Fin S131072x192.rank) e t _ (ix2 b k) rfl rfl (ix2 b ⟨k.val - 128, by omega⟩) (fun a ha => ?_) ?_
    · match a, ha with
      | ⟨0, _⟩, _ => rfl
      | ⟨1, _⟩, ha => exact absurd rfl ha
    · show k.val - 128 + 128 = k.val
      omega

/-- The sum along the 192 columns from a zero initial value, read at row `j 0`. -/
theorem reduce_apply (x : Rows 192) (j : S131072.Idx) :
    Host.reduceAdd (F := Ideal) (φ := .f32) x (constant (F := Ideal) S_ .f32 0x00000000#32) reducesTo_S131072x192_S131072_d1 h_S_ j
      = ∑ k : Fin 192, x (ix2 (j 0) k) := by
  have h : S131072x192.Reduces [1] S131072 := by decide
  rw [hostReduceAdd_apply, Ideal.hostReduceAdd_single reducesTo_S131072x192_S131072_d1 h, constant_apply, Ideal.ofBits_zero_f32, zero_add]
  refine Finset.sum_congr rfl (fun k _ => congrArg x ?_)
  funext a
  match a with
  | ⟨0, _⟩ => exact Fin.ext rfl
  | ⟨1, _⟩ => exact Fin.ext rfl

/-- A row's 192 coordinates, static then time-dependent, as the reference concatenates them. -/
theorem wide_apply (E : Entity) (y m d : Rows 1) (b : Fin 131072) (k : Fin 192) :
    concatenate S131072x192 1 [⟨S131072x128, E.e⟩, ⟨S131072x64, diaArr E y m d⟩] concatenates_S131072x128_S131072x64_S131072x192_d1 (ix2 b k)
      = E.wide y m d b k := by
  rw [concat_apply]
  unfold Entity.wide
  by_cases h : k.val < 128
  · rw [dif_pos h, dif_pos h]
  · rw [dif_neg h, dif_neg h, diaArr_apply]

/-- The sum over the 192 columns of subject · relation · object at row `b` is the score. -/
theorem sum_wide (S O : Entity) (R : Rows 192) (y m d : Rows 1) (b : Fin 131072) :
    ∑ k : Fin 192, mulf (F := Ideal) (φ := .f32) (mulf (F := Ideal) (φ := .f32)
          (concatenate S131072x192 1 [⟨S131072x128, S.e⟩, ⟨S131072x64, diaArr S y m d⟩] concatenates_S131072x128_S131072x64_S131072x192_d1) R)
          (concatenate S131072x192 1 [⟨S131072x128, O.e⟩, ⟨S131072x64, diaArr O y m d⟩] concatenates_S131072x128_S131072x64_S131072x192_d1) (ix2 b k)
      = score S O R y m d b := by
  rw [← scoreWide_eq_score]
  unfold scoreWide
  refine Finset.sum_congr rfl (fun k _ => ?_)
  rw [mulf_apply, mulf_apply, wide_apply, wide_apply]

/-- The reference's last operation at row `j 0`: the sum along the columns from a zero initial value, which is the
    score. -/
theorem reduce_wide (S O : Entity) (R : Rows 192) (y m d : Rows 1) (j : S131072.Idx) :
    Host.reduceAdd (F := Ideal) (φ := .f32)
        (mulf (F := Ideal) (φ := .f32) (mulf (F := Ideal) (φ := .f32)
          (concatenate S131072x192 1 [⟨S131072x128, S.e⟩, ⟨S131072x64, diaArr S y m d⟩] concatenates_S131072x128_S131072x64_S131072x192_d1) R)
          (concatenate S131072x192 1 [⟨S131072x128, O.e⟩, ⟨S131072x64, diaArr O y m d⟩] concatenates_S131072x128_S131072x64_S131072x192_d1))
        (constant (F := Ideal) S_ .f32 0x00000000#32) reducesTo_S131072x192_S131072_d1 h_S_ j
      = score S O R y m d (j 0) := by
  rw [reduce_apply]
  exact sum_wide S O R y m d (j 0)

/-! ## What the reference looks up -/

/-- An index column: negative indices wrapped by the table's height `n`, then laid out as a [131072, 1] column. -/
def col (n : BitVec 32) (idx : (⟨S131072, .i32⟩ : BufTy).Contents (Elt Ideal)) : (⟨S131072x1, .i32⟩ : BufTy).Contents (Elt Ideal) :=
  broadcastInDim S131072x1 ![0] bcast_S131072_S131072x1_0 (select (cmpi .slt idx (broadcastInDim S131072 ![] bcast_S_S131072 (constantI S_ 32 0#32))) (addi idx (broadcastInDim S131072 ![] bcast_S_S131072 (constantI S_ 32 n))) idx)

/-- The rows of the ten entity tables at the indices `idx`. -/
def ent (V0 : Valuation τ sig (Elt Ideal)) (idx : (⟨S131072, .i32⟩ : BufTy).Contents (Elt Ideal)) : Entity where
  e := Host.gather gather_S100000x128_S131072x1_S131072x128_1_0_n_n_0_1_1128 (V0 (Proc.devRef .tc main_arg6)) (col 100000#32 idx)
  yf := Host.gather gather_S100000x64_S131072x1_S131072x64_1_0_n_n_0_1_164 (V0 (Proc.devRef .tc main_arg8)) (col 100000#32 idx)
  mf := Host.gather gather_S100000x64_S131072x1_S131072x64_1_0_n_n_0_1_164 (V0 (Proc.devRef .tc main_arg9)) (col 100000#32 idx)
  df := Host.gather gather_S100000x64_S131072x1_S131072x64_1_0_n_n_0_1_164 (V0 (Proc.devRef .tc main_arg10)) (col 100000#32 idx)
  yp := Host.gather gather_S100000x64_S131072x1_S131072x64_1_0_n_n_0_1_164 (V0 (Proc.devRef .tc main_arg11)) (col 100000#32 idx)
  mp := Host.gather gather_S100000x64_S131072x1_S131072x64_1_0_n_n_0_1_164 (V0 (Proc.devRef .tc main_arg12)) (col 100000#32 idx)
  dp := Host.gather gather_S100000x64_S131072x1_S131072x64_1_0_n_n_0_1_164 (V0 (Proc.devRef .tc main_arg13)) (col 100000#32 idx)
  ya := Host.gather gather_S100000x64_S131072x1_S131072x64_1_0_n_n_0_1_164 (V0 (Proc.devRef .tc main_arg14)) (col 100000#32 idx)
  ma := Host.gather gather_S100000x64_S131072x1_S131072x64_1_0_n_n_0_1_164 (V0 (Proc.devRef .tc main_arg15)) (col 100000#32 idx)
  da := Host.gather gather_S100000x64_S131072x1_S131072x64_1_0_n_n_0_1_164 (V0 (Proc.devRef .tc main_arg16)) (col 100000#32 idx)

/-- The subject's rows: the entity tables at argument 0's indices. -/
def subj (V0 : Valuation τ sig (Elt Ideal)) : Entity := ent V0 (V0 (Proc.devRef .tc main_arg0))

/-- The object's rows: the entity tables at argument 2's indices. -/
def obj (V0 : Valuation τ sig (Elt Ideal)) : Entity := ent V0 (V0 (Proc.devRef .tc main_arg2))

/-- The relation's rows: the relation table at argument 1's indices. -/
def rel (V0 : Valuation τ sig (Elt Ideal)) : Rows 192 :=
  Host.gather gather_S500x192_S131072x1_S131072x192_1_0_n_n_0_1_1192 (V0 (Proc.devRef .tc main_arg7)) (col 500#32 (V0 (Proc.devRef .tc main_arg1)))

/-- The year, month and day of each row, as [131072, 1] columns. -/
def ycol (V0 : Valuation τ sig (Elt Ideal)) : Rows 1 := broadcastInDim S131072x1 ![0] bcast_S131072_S131072x1_0 (V0 (Proc.devRef .tc main_arg3))
def mcol (V0 : Valuation τ sig (Elt Ideal)) : Rows 1 := broadcastInDim S131072x1 ![0] bcast_S131072_S131072x1_0 (V0 (Proc.devRef .tc main_arg4))
def dcol (V0 : Valuation τ sig (Elt Ideal)) : Rows 1 := broadcastInDim S131072x1 ![0] bcast_S131072_S131072x1_0 (V0 (Proc.devRef .tc main_arg5))

theorem res89_eq (V0 : Valuation τ sig (Elt Ideal)) :
    Value.res_main_v89 (F := Ideal) V0 = diaArr (subj V0) (ycol V0) (mcol V0) (dcol V0) := rfl

theorem res177_eq (V0 : Valuation τ sig (Elt Ideal)) :
    Value.res_main_v177 (F := Ideal) V0 = diaArr (obj V0) (ycol V0) (mcol V0) (dcol V0) := rfl

/-- The reference run's result term is the score of the looked-up rows. -/
theorem result_eq (V0 : Valuation τ sig (Elt Ideal)) :
    Host.reduceAdd (F := Ideal) (φ := .f32)
        (mulf (F := Ideal) (φ := .f32) (mulf (F := Ideal) (φ := .f32)
          (concatenate S131072x192 1 [⟨S131072x128, (subj V0).e⟩, ⟨S131072x64, Value.res_main_v89 (F := Ideal) V0⟩] concatenates_S131072x128_S131072x64_S131072x192_d1) (rel V0))
          (concatenate S131072x192 1 [⟨S131072x128, (obj V0).e⟩, ⟨S131072x64, Value.res_main_v177 (F := Ideal) V0⟩] concatenates_S131072x128_S131072x64_S131072x192_d1))
        (constant (F := Ideal) S_ .f32 0x00000000#32) reducesTo_S131072x192_S131072_d1 h_S_
      = fun j => score (subj V0) (obj V0) (rel V0) (ycol V0) (mcol V0) (dcol V0) (j 0) := by
  rw [res89_eq, res177_eq]
  funext j
  exact reduce_wide (subj V0) (obj V0) (rel V0) (ycol V0) (mcol V0) (dcol V0) j

/-- Every weakly fair execution of the reference terminates with its result buffer holding the score of the rows
    it looks up in the arguments' launch contents, row by row, and with the seventeen arguments unchanged. -/
theorem run_score (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v188)
        = (fun j => score (subj (launchContents m c)) (obj (launchContents m c)) (rel (launchContents m c))
            (ycol (launchContents m c)) (mcol (launchContents m c)) (dcol (launchContents m c)) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c).1.trans (result_eq (launchContents m c)), (h c).2⟩)
    (Value.run (F := Ideal) m ρ)

end Cert.ReferenceIdeal.RefScore

end
-- ==== Proof.LibUnitAxis.lean ====
/-
  A vector given a unit axis: reshaping `[a]` to the column `[a, 1]` or to the row `[1, a]` gives the same array as
  broadcasting it along the new axis. Both read, at `(i, 0)` respectively `(0, i)`, the vector's entry `i`: the reshape
  because the row-major positions agree, the broadcast because the new axis is not among the operand's. General in `a`
  and in the element type.
-/
import Idealize.ShloMosaic.Lib.Pipeline.Value
import Idealize.ShloMosaic.Lib.ValueIdx

namespace Cert.LibUnitAxis

open Idealize.ShloMosaic

variable {α : Type}

/-- The column: `reshape v : [a, 1]` is `broadcast_in_dim v, dims = [0]`. -/
theorem shapeCast_col_eq_broadcastInDim {a : ℕ} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ v h = broadcastInDim ⟨2, ![a, 1]⟩ (![0] : Fin 1 → Fin 2) h' v := by
  funext j
  have h1 : (j 1).val < 1 := (j 1).isLt
  have h0 : (j 0).val < a := (j 0).isLt
  rw [shapeCast_apply v h j (ValueIdx.ix1 ⟨(j 0).val, h0⟩) (by
      rw [Shape.rowMajor_val_one, Shape.rowMajor_val_two]
      show (j 0).val = (j 0).val * 1 + (j 1).val
      omega),
    broadcastInDim_apply (![0] : Fin 1 → Fin 2) h' v j (ValueIdx.ix1 ⟨(j 0).val, h0⟩) (by
      intro b
      fin_cases b
      show (j 0).val = if a = 1 then 0 else (j 0).val
      split
      · omega
      · rfl)]

/-- The row: `reshape v : [1, a]` is `broadcast_in_dim v, dims = [1]`. -/
theorem shapeCast_row_eq_broadcastInDim {a : ℕ} (v : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ v h = broadcastInDim ⟨2, ![1, a]⟩ (![1] : Fin 1 → Fin 2) h' v := by
  funext j
  have h0 : (j 0).val < 1 := (j 0).isLt
  have h1 : (j 1).val < a := (j 1).isLt
  rw [shapeCast_apply v h j (ValueIdx.ix1 ⟨(j 1).val, h1⟩) (by
      rw [Shape.rowMajor_val_one, Shape.rowMajor_val_two]
      show (j 1).val = (j 0).val * a + (j 1).val
      have : (j 0).val = 0 := by omega
      rw [this, Nat.zero_mul, Nat.zero_add]),
    broadcastInDim_apply (![1] : Fin 1 → Fin 2) h' v j (ValueIdx.ix1 ⟨(j 1).val, h1⟩) (by
      intro b
      fin_cases b
      show (j 1).val = if a = 1 then 0 else (j 1).val
      split
      · omega
      · rfl)]

end Cert.LibUnitAxis
-- ==== Proof.Bridge.lean ====
/-
  The two programs look up the same rows.

  Both programs turn an index vector into a column of non-negative row numbers in the same way (a negative index
  counts from the end of the table) and look the rows up with the same gather; the kernel's program does this before its
  region, for the subject's and the object's ten tables and for the relation's, and hands the results to the region as
  operand arrays; the reference does it where each value is used. So, from memories that agree on the arguments, the
  reference's entities, relation rows and date columns ARE the kernel's operand arrays — the dates because a vector
  reshaped to a column and a vector broadcast along a new unit axis are the same column — and the two score vectors,
  one function of those arrays, coincide.
-/
import proofs.«127167_j18786186953558_2_alg».proof.Proof.KernelValue
import proofs.«127167_j18786186953558_2_alg».proof.Proof.KernelRows
import proofs.«127167_j18786186953558_2_alg».proof.Proof.RefScore
import proofs.«127167_j18786186953558_2_alg».proof.Proof.LibUnitAxis

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The subject's ten looked-up arrays. -/
theorem subj_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.RefScore.subj (launchContents m' c) = Cert.KernelIdeal.Whole.subj m c := by
  unfold Cert.ReferenceIdeal.RefScore.subj Cert.ReferenceIdeal.RefScore.ent Cert.KernelIdeal.Whole.subj
  rw [Cert.KernelIdeal.Rows.V_main_v6 m c, Cert.KernelIdeal.Rows.V_main_v27 m c, Cert.KernelIdeal.Rows.V_main_v34 m c,
    Cert.KernelIdeal.Rows.V_main_v41 m c, Cert.KernelIdeal.Rows.V_main_v48 m c, Cert.KernelIdeal.Rows.V_main_v55 m c,
    Cert.KernelIdeal.Rows.V_main_v62 m c, Cert.KernelIdeal.Rows.V_main_v69 m c, Cert.KernelIdeal.Rows.V_main_v76 m c,
    Cert.KernelIdeal.Rows.V_main_v83 m c, ← h0, ← h6, ← h8, ← h9, ← h10, ← h11, ← h12, ← h13, ← h14, ← h15, ← h16]
  rfl

/-- The object's ten looked-up arrays. -/
theorem obj_eq
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.RefScore.obj (launchContents m' c) = Cert.KernelIdeal.Whole.obj m c := by
  unfold Cert.ReferenceIdeal.RefScore.obj Cert.ReferenceIdeal.RefScore.ent Cert.KernelIdeal.Whole.obj
  rw [Cert.KernelIdeal.Rows.V_main_v13 m c, Cert.KernelIdeal.Rows.V_main_v90 m c, Cert.KernelIdeal.Rows.V_main_v97 m c,
    Cert.KernelIdeal.Rows.V_main_v104 m c, Cert.KernelIdeal.Rows.V_main_v111 m c, Cert.KernelIdeal.Rows.V_main_v118 m c,
    Cert.KernelIdeal.Rows.V_main_v125 m c, Cert.KernelIdeal.Rows.V_main_v132 m c, Cert.KernelIdeal.Rows.V_main_v139 m c,
    Cert.KernelIdeal.Rows.V_main_v146 m c, ← h2, ← h6, ← h8, ← h9, ← h10, ← h11, ← h12, ← h13, ← h14, ← h15, ← h16]
  rfl

/-- The relation's looked-up rows. -/
theorem rel_eq
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RefScore.rel (launchContents m' c)
      = (Cert.KernelIdeal.Gen.V m c Cert.KernelIdeal.main_v20 : Cert.KernelIdeal.S131072x192.Idx → Elt Ideal .f32) := by
  unfold Cert.ReferenceIdeal.RefScore.rel
  rw [Cert.KernelIdeal.Rows.V_main_v20 m c, ← h1, ← h7]
  rfl

/-- The year column: the reference broadcasts the vector along a new unit axis, the kernel's program reshapes it. -/
theorem ycol_eq
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.RefScore.ycol (launchContents m' c)
      = (Cert.KernelIdeal.Gen.V m c Cert.KernelIdeal.main_v147 : Cert.KernelIdeal.S131072x1.Idx → Elt Ideal .f32) := by
  unfold Cert.ReferenceIdeal.RefScore.ycol
  rw [Cert.KernelIdeal.Rows.V_main_v147 m c, ← h3]
  exact (Cert.LibUnitAxis.shapeCast_col_eq_broadcastInDim _ _ _).symm

/-- The month column. -/
theorem mcol_eq
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RefScore.mcol (launchContents m' c)
      = (Cert.KernelIdeal.Gen.V m c Cert.KernelIdeal.main_v148 : Cert.KernelIdeal.S131072x1.Idx → Elt Ideal .f32) := by
  unfold Cert.ReferenceIdeal.RefScore.mcol
  rw [Cert.KernelIdeal.Rows.V_main_v148 m c, ← h4]
  exact (Cert.LibUnitAxis.shapeCast_col_eq_broadcastInDim _ _ _).symm

/-- The day column. -/
theorem dcol_eq
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.RefScore.dcol (launchContents m' c)
      = (Cert.KernelIdeal.Gen.V m c Cert.KernelIdeal.main_v149 : Cert.KernelIdeal.S131072x1.Idx → Elt Ideal .f32) := by
  unfold Cert.ReferenceIdeal.RefScore.dcol
  rw [Cert.KernelIdeal.Rows.V_main_v149 m c, ← h5]
  exact (Cert.LibUnitAxis.shapeCast_col_eq_broadcastInDim _ _ _).symm

end Cert.Bridge

end
-- ==== Proof.lean ====
/-
  The kernel computes the reference's score.

  For every row `b` of 131072 both programs look up the subject's and the object's static coordinates (128 numbers each)
  and the frequencies, phases and amplitudes of their 64 time-dependent coordinates, and the relation's 192 numbers,
  form  T[b,k] = (ya·sin(yf·y_b + yp) + ma·sin(mf·m_b + mp)) + da·sin(df·d_b + dp)  for each entity, and sum the triple
  products subject · relation · object. The reference concatenates each entity's 128 + 64 coordinates and takes one sum
  over 192 columns; the kernel, 2048 rows per grid point, takes the sum over the first 128 columns and the sum over the
  last 64 and adds them. Over the extended reals the two are equal because a finite sum may be cut at column 128
  (commutativity and associativity of addition only), the sine of the host and of the kernel being one function there;
  no finiteness of the inputs is used, and no float constant other than zero occurs. The idealization rewrote nothing,
  so the kernel's idealized program is its own text read over the extended reals.

  The three frames are the generated frame runs of the two kernel programs and the reference's generated run with its
  result dropped. The value claim composes the kernel's run read as a score vector (the body's stored value at a row,
  the 64 blocks tiling the output column, the final reshape) with the reference's run read as the same score of the
  same looked-up arrays.
-/
import proofs.«127167_j18786186953558_2_alg».proof.Defs
import proofs.«127167_j18786186953558_2_alg».proof.Proof.Gen.Kernel
import proofs.«127167_j18786186953558_2_alg».proof.Proof.Gen.Kernel.Skeleton
import proofs.«127167_j18786186953558_2_alg».proof.Proof.Gen.Kernel.Launch
import proofs.«127167_j18786186953558_2_alg».proof.Proof.Gen.Kernel.Points
import proofs.«127167_j18786186953558_2_alg».proof.Proof.Gen.Kernel.Frame
import proofs.«127167_j18786186953558_2_alg».proof.Proof.Gen.KernelIdeal
import proofs.«127167_j18786186953558_2_alg».proof.Proof.Gen.KernelIdeal.Skeleton
import proofs.«127167_j18786186953558_2_alg».proof.Proof.Gen.KernelIdeal.Launch
import proofs.«127167_j18786186953558_2_alg».proof.Proof.Gen.KernelIdeal.Points
import proofs.«127167_j18786186953558_2_alg».proof.Proof.Gen.KernelIdeal.Frame
import proofs.«127167_j18786186953558_2_alg».proof.Proof.Gen.ReferenceIdeal
import proofs.«127167_j18786186953558_2_alg».proof.Proof.Gen.ReferenceIdeal.Run
import proofs.«127167_j18786186953558_2_alg».proof.Proof.Gen.Pre_finite_inputs
import proofs.«127167_j18786186953558_2_alg».proof.Proof.KernelRun
import proofs.«127167_j18786186953558_2_alg».proof.Proof.Bridge
import Idealize.ShloMosaic.Adequacy
import Idealize.ShloMosaic.Init

set_option maxRecDepth 16384

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel's result vector and the reference's are the same score vector:
    the same function of the same looked-up arrays. -/
theorem algebraic : Cert.algebraic_KernelIdeal_ReferenceIdeal := by
  intro m ρ m' ρ' _ hagree
  refine ⟨fun c => Cert.KernelIdeal.Whole.result m c, Cert.KernelIdeal.Whole.run_score m ρ, ?_⟩
  refine (θ_run Cert.ReferenceIdeal.defs _ _).mono (fun _ h c => ⟨(h c).1.trans ?_, (h c).2⟩)
    (Cert.ReferenceIdeal.RefScore.run_score m' ρ')
  obtain ⟨h0, h1, h2, h3, h4, h5, h6, h7, h8, h9, h10, h11, h12, h13, h14, h15, h16⟩ := hagree c
  funext j
  unfold Cert.KernelIdeal.Whole.result
  rw [Cert.Bridge.subj_eq m m' c h0 h6 h8 h9 h10 h11 h12 h13 h14 h15 h16,
    Cert.Bridge.obj_eq m m' c h2 h6 h8 h9 h10 h11 h12 h13 h14 h15 h16,
    Cert.Bridge.rel_eq m m' c h1 h7, Cert.Bridge.ycol_eq m m' c h3, Cert.Bridge.mcol_eq m m' c h4,
    Cert.Bridge.dcol_eq m m' c h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
